-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x1000x64 : Shape := ⟨3, ![12, 1000, 64]⟩
abbrev S1000x1000 : Shape := ⟨2, ![1000, 1000]⟩
abbrev S_ : Shape := ⟨0, ![]⟩

class Facts : Prop where
  bcast_S_S12x1000x64 : S_.BroadcastsInDim S12x1000x64 (![] : Fin 0 → Fin S12x1000x64.rank)
  reducesTo_S12x1000x64_S_d0_1_2 : S12x1000x64.ReducesTo [0, 1, 2] S_
  h_S_ : 0 < S_.numel

variable [Facts]

def fn {F : FTy → Type} [FloatOps F] (main_arg0 : FVec F S12x1000x64 .f32) (main_arg1 : IVec S1000x1000 32) : IVec S_ 1 :=
  let main_v0 : FVec F S12x1000x64 .f32 := Host.absf main_arg0
  let main_cst : FVec F S_ .f32 := constant S_ .f32 0x7F800000#32
  let main_v1 : FVec F S12x1000x64 .f32 := broadcastInDim S12x1000x64 ![] bcast_S_S12x1000x64 main_cst
  let main_v2 : IVec S12x1000x64 1 := cmpf .olt main_v0 main_v1
  let main_c : IVec S_ 1 := constantI S_ 1 1#1
  let main_v3 : IVec S_ 1 := (fun x v => Host.reduce IntOp.andi x v reducesTo_S12x1000x64_S_d0_1_2 h_S_) main_v2 main_c
  main_v3
-- ==== Kernel.lean ====
abbrev S12x1000x64 : Shape := ⟨3, ![12, 1000, 64]⟩
abbrev S1000x1000 : Shape := ⟨2, ![1000, 1000]⟩
abbrev S1x1000x64 : Shape := ⟨3, ![1, 1000, 64]⟩
abbrev S1000x64 : Shape := ⟨2, ![1000, 64]⟩
abbrev S64x1000 : Shape := ⟨2, ![64, 1000]⟩
abbrev S1000 : Shape := ⟨1, ![1000]⟩
abbrev S1000x1 : Shape := ⟨2, ![1000, 1]⟩
abbrev S1000x12x64 : Shape := ⟨3, ![1000, 12, 64]⟩
abbrev S1000x12x12 : Shape := ⟨3, ![1000, 12, 12]⟩
abbrev S200x12x64 : Shape := ⟨3, ![200, 12, 64]⟩
abbrev S200x12x12 : Shape := ⟨3, ![200, 12, 12]⟩
abbrev S12x1000x12 : Shape := ⟨3, ![12, 1000, 12]⟩
abbrev S12x1000x12x1000 : Shape := ⟨4, ![12, 1000, 12, 1000]⟩
abbrev S200x1000 : Shape := ⟨2, ![200, 1000]⟩
abbrev S1x200x12 : Shape := ⟨3, ![1, 200, 12]⟩
abbrev S1x200x12x1000 : Shape := ⟨4, ![1, 200, 12, 1000]⟩
abbrev S200x12 : Shape := ⟨2, ![200, 12]⟩
abbrev S200x12x1 : Shape := ⟨3, ![200, 12, 1]⟩
abbrev S200x1x1000 : Shape := ⟨3, ![200, 1, 1000]⟩
abbrev S200x12x1000 : Shape := ⟨3, ![200, 12, 1000]⟩
abbrev S12000x12000 : Shape := ⟨2, ![12000, 12000]⟩

abbrev nBuf : Space → Nat
  | .hbm => 8
  | .vmem => 15
  | .smem => 0
  | _ => 0

abbrev bufTy : (tb : Table) → Fin (tcTables nBuf tb) → BufTy
  | .hbm, ⟨0, _⟩ => ⟨S12x1000x64, .f32⟩
  | .hbm, ⟨1, _⟩ => ⟨S1000x1000, .i32⟩
  | .hbm, ⟨2, _⟩ => ⟨S12x1000x64, .f32⟩
  | .hbm, ⟨3, _⟩ => ⟨S1000x12x64, .f32⟩
  | .hbm, ⟨4, _⟩ => ⟨S1000x12x12, .f32⟩
  | .hbm, ⟨5, _⟩ => ⟨S12x1000x12, .f32⟩
  | .hbm, ⟨6, _⟩ => ⟨S12x1000x12x1000, .f32⟩
  | .hbm, ⟨7, _⟩ => ⟨S12000x12000, .f32⟩
  | .local _ .vmem, ⟨0, _⟩ => ⟨S1x1000x64, .f32⟩
  | .local _ .vmem, ⟨1, _⟩ => ⟨S1x1000x64, .f32⟩
  | .local _ .vmem, ⟨2, _⟩ => ⟨S1000x1000, .i32⟩
  | .local _ .vmem, ⟨3, _⟩ => ⟨S1x1000x64, .f32⟩
  | .local _ .vmem, ⟨4, _⟩ => ⟨S1x1000x64, .f32⟩
  | .local _ .vmem, ⟨5, _⟩ => ⟨S200x12x64, .f32⟩
  | .local _ .vmem, ⟨6, _⟩ => ⟨S200x12x64, .f32⟩
  | .local _ .vmem, ⟨7, _⟩ => ⟨S200x12x12, .f32⟩
  | .local _ .vmem, ⟨8, _⟩ => ⟨S200x12x12, .f32⟩
  | .local _ .vmem, ⟨9, _⟩ => ⟨S200x1000, .i32⟩
  | .local _ .vmem, ⟨10, _⟩ => ⟨S200x1000, .i32⟩
  | .local _ .vmem, ⟨11, _⟩ => ⟨S1x200x12, .f32⟩
  | .local _ .vmem, ⟨12, _⟩ => ⟨S1x200x12, .f32⟩
  | .local _ .vmem, ⟨13, _⟩ => ⟨S1x200x12x1000, .f32⟩
  | .local _ .vmem, ⟨14, _⟩ => ⟨S1x200x12x1000, .f32⟩
  | _, _ => ⟨S12x1000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S200x12x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x12x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc2_transform_1 (i : grid2.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v26.toNat, v16.toNat, c0_i32_10.toNat]

def cc2_transform_2 (i : grid2.Coords) : Fin 4 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v26.toNat, v16.toNat, c0_i32_10.toNat, c0_i32_11.toNat]

abbrev stage2_0 : Fin 2 → Memref sig .tc .vmem S200x1000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x200x12 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x200x12x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  bitsLt_bf16_f32 : FTy.bits .bf16 < FTy.bits .f32
  transposes_S1000x64_p1_0_S64x1000 : S1000x64.Transposes [1, 0] S64x1000
  inb_S1000x1000_S1000x1000_0_0 : ∀ a, (![0, 0] : Fin 2 → Nat) a + S1000x1000.size a ≤ S1000x1000.size a
  h_S1000x1000 : 0 < S1000x1000.numel
  reduces_S1000x1000_S1000 : S1000x1000.Reduces [1] S1000
  shapeCasts_S1000_S1000x1 : S1000.ShapeCasts S1000x1
  broadcasts_S1000x1_S1000x1000 : S1000x1.Broadcasts S1000x1000
  shapeCasts_S1000x64_S1x1000x64 : S1000x64.ShapeCasts S1x1000x64
  transposes_S12x1000x64_S1000x12x64_1_0_2 : S12x1000x64.Transposes [1, 0, 2] S1000x12x64
  inb_S200x12x64_S200x12x64_0_0_0 : ∀ a, (![0, 0, 0] : Fin 3 → Nat) a + S200x12x64.size a ≤ S200x12x64.size a
  h_S200x12x64 : 0 < S200x12x64.numel
  shapeCasts_S200x12x64_S200x12x64 : S200x12x64.ShapeCasts S200x12x64
  inb_S200x12x12_S200x12x12_0_0_0 : ∀ a, (![0, 0, 0] : Fin 3 → Nat) a + S200x12x12.size a ≤ S200x12x12.size a
  h_S200x12x12 : 0 < S200x12x12.numel
  transposes_S1000x12x12_S12x1000x12_2_0_1 : S1000x12x12.Transposes [2, 0, 1] S12x1000x12
  inb_S200x1000_S200x1000_0_0 : ∀ a, (![0, 0] : Fin 2 → Nat) a + S200x1000.size a ≤ S200x1000.size a
  h_S200x1000 : 0 < S200x1000.numel
  inb_S1x200x12_S1x200x12_0_0_0 : ∀ a, (![0, 0, 0] : Fin 3 → Nat) a + S1x200x12.size a ≤ S1x200x12.size a
  h_S1x200x12 : 0 < S1x200x12.numel
  shapeCasts_S1x200x12_S200x12 : S1x200x12.ShapeCasts S200x12
  shapeCasts_S200x12_S200x12x1 : S200x12.ShapeCasts S200x12x1
  shapeCasts_S200x1000_S200x1x1000 : S200x1000.ShapeCasts S200x1x1000
  broadcasts_S200x12x1_S200x12x1000 : S200x12x1.Broadcasts S200x12x1000
  broadcasts_S200x1x1000_S200x12x1000 : S200x1x1000.Broadcasts S200x12x1000
  inb_S1x200x12x1000_S1x200x12x1000_0_0_0_0 : ∀ a, (![0, 0, 0, 0] : Fin 4 → Nat) a + S1x200x12x1000.size a ≤ S1x200x12x1000.size a
  h_S1x200x12x1000 : 0 < S1x200x12x1000.numel
  shapeCasts_S1x200x12x1000_S200x12x1000 : S1x200x12x1000.ShapeCasts S200x12x1000
  shapeCasts_S200x12x1000_S1x200x12x1000 : S200x12x1000.ShapeCasts S1x200x12x1000
  shapeCasts_S12x1000x12x1000_S12000x12000 : S12x1000x12x1000.ShapeCasts S12000x12000
  dot_S1000x64_S64x1000_S1000x1000_1_0_0_1_n_n_wf : DotDims.WF S1000x64 S64x1000 S1000x1000 [1] [0] [0] [1] [] []
  dot_S1000x1000_S1000x64_S1000x64_1_0_0_1_n_n_wf : DotDims.WF S1000x1000 S1000x64 S1000x64 [1] [0] [0] [1] [] []
  dot_S200x12x64_S200x12x64_S200x12x12_2_2_1_1_0_0_wf : DotDims.WF S200x12x64 S200x12x64 S200x12x12 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x64.size a ≤ S12x1000x64.size a
  hwx0_0 : ∀ i : grid0.Coords, EltTy.bits .f32 = 32 ∨ (Rect.block (s := S12x1000x64) S1x1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .i32 = 32 ∨ (Rect.block (s := S1000x1000) S1000x1000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x64.size a ≤ S12x1000x64.size a
  hwx0_2 : ∀ i : grid0.Coords, EltTy.bits .f32 = 32 ∨ (Rect.block (s := S12x1000x64) S1x1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x12x64.size a ≤ S1000x12x64.size a
  hwx1_0 : ∀ i : grid1.Coords, EltTy.bits .f32 = 32 ∨ (Rect.block (s := S1000x12x64) S200x12x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x12x12.size a ≤ S1000x12x12.size a
  hwx1_1 : ∀ i : grid1.Coords, EltTy.bits .f32 = 32 ∨ (Rect.block (s := S1000x12x12) S200x12x12.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x1000.size a ≤ S1000x1000.size a
  hwx2_0 : ∀ i : grid2.Coords, EltTy.bits .i32 = 32 ∨ (Rect.block (s := S1000x1000) S200x1000.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x200x12.size a ≤ S12x1000x12.size a
  hwx2_1 : ∀ i : grid2.Coords, EltTy.bits .f32 = 32 ∨ (Rect.block (s := S12x1000x12) S1x200x12.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x200x12x1000.size a ≤ S12x1000x12x1000.size a
  hwx2_2 : ∀ i : grid2.Coords, EltTy.bits .f32 = 32 ∨ (Rect.block (s := S12x1000x12x1000) S1x200x12x1000.size (cc2_transform_2 i) (hinb2_2 i)).WholeWords (EltTy.packing .f32)

variable [Facts₀]

def dot_S1000x64_S64x1000_S1000x1000_1_0_0_1_n_n : DotDims S1000x64 S64x1000 S1000x1000 where
  lhsContracting := [1]
  rhsContracting := [0]
  lhsNonContracting := [0]
  rhsNonContracting := [1]
  lhsBatch := []
  rhsBatch := []
  wf := dot_S1000x64_S64x1000_S1000x1000_1_0_0_1_n_n_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def dot_S200x12x64_S200x12x64_S200x12x12_2_2_1_1_0_0 : DotDims S200x12x64 S200x12x64 S200x12x12 where
  lhsContracting := [2]
  rhsContracting := [2]
  lhsNonContracting := [1]
  rhsNonContracting := [1]
  lhsBatch := [0]
  rhsBatch := [0]
  wf := dot_S200x12x64_S200x12x64_S200x12x12_2_2_1_1_0_0_wf

abbrev win0_0 : Pipeline.Window sig grid0 :=
  Pipeline.Window.ofSpec (Memref.whole main_arg0) S1x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S200x12x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S200x12x12.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg1) S200x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x200x12.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x200x12x1000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12x1000x64 : Shape := ⟨3, ![12, 1000, 64]⟩
abbrev S1000x1000 : Shape := ⟨2, ![1000, 1000]⟩
abbrev S12x1000x1000 : Shape := ⟨3, ![12, 1000, 1000]⟩
abbrev S_ : Shape := ⟨0, ![]⟩
abbrev S1x1000x1000 : Shape := ⟨3, ![1, 1000, 1000]⟩
abbrev S12x1000 : Shape := ⟨2, ![12, 1000]⟩
abbrev S12x1000x1 : Shape := ⟨3, ![12, 1000, 1]⟩
abbrev S1000x12x64 : Shape := ⟨3, ![1000, 12, 64]⟩
abbrev S1000x12x12 : Shape := ⟨3, ![1000, 12, 12]⟩
abbrev S12x1000x12 : Shape := ⟨3, ![12, 1000, 12]⟩
abbrev S12x1000x12x1 : Shape := ⟨4, ![12, 1000, 12, 1]⟩
abbrev S1x1000x1x1000 : Shape := ⟨4, ![1, 1000, 1, 1000]⟩
abbrev S12x1000x12x1000 : Shape := ⟨4, ![12, 1000, 12, 1000]⟩
abbrev S12000x12000 : Shape := ⟨2, ![12000, 12000]⟩

abbrev nBuf : Space → Nat
  | .hbm => 51
  | .vmem => 0
  | .smem => 0
  | _ => 0

abbrev bufTy : (tb : Table) → Fin (tcTables nBuf tb) → BufTy
  | .hbm, ⟨0, _⟩ => ⟨S12x1000x64, .f32⟩
  | .hbm, ⟨1, _⟩ => ⟨S1000x1000, .i32⟩
  | .hbm, ⟨2, _⟩ => ⟨S12x1000x1000, .f32⟩
  | .hbm, ⟨3, _⟩ => ⟨S_, .f32⟩
  | .hbm, ⟨4, _⟩ => ⟨S12x1000x1000, .f32⟩
  | .hbm, ⟨5, _⟩ => ⟨S12x1000x1000, .f32⟩
  | .hbm, ⟨6, _⟩ => ⟨S1x1000x1000, .i32⟩
  | .hbm, ⟨7, _⟩ => ⟨S_, .i32⟩
  | .hbm, ⟨8, _⟩ => ⟨S1x1000x1000, .i32⟩
  | .hbm, ⟨9, _⟩ => ⟨S1x1000x1000, .i1⟩
  | .hbm, ⟨10, _⟩ => ⟨S_, .f32⟩
  | .hbm, ⟨11, _⟩ => ⟨S_, .f32⟩
  | .hbm, ⟨12, _⟩ => ⟨S12x1000x1000, .i1⟩
  | .hbm, ⟨13, _⟩ => ⟨S12x1000x1000, .f32⟩
  | .hbm, ⟨14, _⟩ => ⟨S12x1000x1000, .f32⟩
  | .hbm, ⟨15, _⟩ => ⟨S_, .f32⟩
  | .hbm, ⟨16, _⟩ => ⟨S12x1000, .f32⟩
  | .hbm, ⟨17, _⟩ => ⟨S_, .f32⟩
  | .hbm, ⟨18, _⟩ => ⟨S12x1000, .f32⟩
  | .hbm, ⟨19, _⟩ => ⟨S12x1000, .f32⟩
  | .hbm, ⟨20, _⟩ => ⟨S12x1000x1, .f32⟩
  | .hbm, ⟨21, _⟩ => ⟨S12x1000x1000, .f32⟩
  | .hbm, ⟨22, _⟩ => ⟨S12x1000x1000, .f32⟩
  | .hbm, ⟨23, _⟩ => ⟨S12x1000x1000, .f32⟩
  | .hbm, ⟨24, _⟩ => ⟨S_, .f32⟩
  | .hbm, ⟨25, _⟩ => ⟨S12x1000, .f32⟩
  | .hbm, ⟨26, _⟩ => ⟨S12x1000x1, .f32⟩
  | .hbm, ⟨27, _⟩ => ⟨S12x1000x1000, .f32⟩
  | .hbm, ⟨28, _⟩ => ⟨S12x1000x1000, .f32⟩
  | .hbm, ⟨29, _⟩ => ⟨S12x1000x64, .f32⟩
  | .hbm, ⟨30, _⟩ => ⟨S1000x12x64, .f32⟩
  | .hbm, ⟨31, _⟩ => ⟨S1000x12x12, .f32⟩
  | .hbm, ⟨32, _⟩ => ⟨S_, .f32⟩
  | .hbm, ⟨33, _⟩ => ⟨S1000x12x12, .f32⟩
  | .hbm, ⟨34, _⟩ => ⟨S1000x12x12, .f32⟩
  | .hbm, ⟨35, _⟩ => ⟨S1000x12x12, .f32⟩
  | .hbm, ⟨36, _⟩ => ⟨S1000x12x12, .f32⟩
  | .hbm, ⟨37, _⟩ => ⟨S_, .f32⟩
  | .hbm, ⟨38, _⟩ => ⟨S1000x12x12, .f32⟩
  | .hbm, ⟨39, _⟩ => ⟨S1000x12x12, .f32⟩
  | .hbm, ⟨40, _⟩ => ⟨S_, .f32⟩
  | .hbm, ⟨41, _⟩ => ⟨S1000x12x12, .f32⟩
  | .hbm, ⟨42, _⟩ => ⟨S1000x12x12, .f32⟩
  | .hbm, ⟨43, _⟩ => ⟨S12x1000x12, .f32⟩
  | .hbm, ⟨44, _⟩ => ⟨S12x1000x12x1, .f32⟩
  | .hbm, ⟨45, _⟩ => ⟨S1000x1000, .f32⟩
  | .hbm, ⟨46, _⟩ => ⟨S1x1000x1x1000, .f32⟩
  | .hbm, ⟨47, _⟩ => ⟨S12x1000x12x1000, .f32⟩
  | .hbm, ⟨48, _⟩ => ⟨S12x1000x12x1000, .f32⟩
  | .hbm, ⟨49, _⟩ => ⟨S12x1000x12x1000, .f32⟩
  | .hbm, ⟨50, _⟩ => ⟨S12000x12000, .f32⟩
  | _, _ => ⟨S12x1000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S12x1000x1000 : S_.BroadcastsInDim S12x1000x1000 (![] : Fin 0 → Fin S12x1000x1000.rank)
  bcast_S1000x1000_S1x1000x1000_1_2 : S1000x1000.BroadcastsInDim S1x1000x1000 (![1, 2] : Fin 2 → Fin S1x1000x1000.rank)
  bcast_S_S1x1000x1000 : S_.BroadcastsInDim S1x1000x1000 (![] : Fin 0 → Fin S1x1000x1000.rank)
  bcast_S1x1000x1000_S12x1000x1000_0_1_2 : S1x1000x1000.BroadcastsInDim S12x1000x1000 (![0, 1, 2] : Fin 3 → Fin S12x1000x1000.rank)
  reducesTo_S12x1000x1000_S12x1000_d2 : S12x1000x1000.ReducesTo [2] S12x1000
  h_S_ : 0 < S_.numel
  bcast_S_S12x1000 : S_.BroadcastsInDim S12x1000 (![] : Fin 0 → Fin S12x1000.rank)
  bcast_S12x1000_S12x1000x1_0_1 : S12x1000.BroadcastsInDim S12x1000x1 (![0, 1] : Fin 2 → Fin S12x1000x1.rank)
  bcast_S12x1000x1_S12x1000x1000_0_1_2 : S12x1000x1.BroadcastsInDim S12x1000x1000 (![0, 1, 2] : Fin 3 → Fin S12x1000x1000.rank)
  transposes_S12x1000x64_S1000x12x64_1_0_2 : S12x1000x64.Transposes [1, 0, 2] S1000x12x64
  bcast_S_S1000x12x12 : S_.BroadcastsInDim S1000x12x12 (![] : Fin 0 → Fin S1000x12x12.rank)
  transposes_S1000x12x12_S12x1000x12_2_0_1 : S1000x12x12.Transposes [2, 0, 1] S12x1000x12
  bcast_S12x1000x12_S12x1000x12x1_0_1_2 : S12x1000x12.BroadcastsInDim S12x1000x12x1 (![0, 1, 2] : Fin 3 → Fin S12x1000x12x1.rank)
  bcast_S1000x1000_S1x1000x1x1000_1_3 : S1000x1000.BroadcastsInDim S1x1000x1x1000 (![1, 3] : Fin 2 → Fin S1x1000x1x1000.rank)
  bcast_S12x1000x12x1_S12x1000x12x1000_0_1_2_3 : S12x1000x12x1.BroadcastsInDim S12x1000x12x1000 (![0, 1, 2, 3] : Fin 4 → Fin S12x1000x12x1000.rank)
  bcast_S1x1000x1x1000_S12x1000x12x1000_0_1_2_3 : S1x1000x1x1000.BroadcastsInDim S12x1000x12x1000 (![0, 1, 2, 3] : Fin 4 → Fin S12x1000x12x1000.rank)
  shapeCasts_S12x1000x12x1000_S12000x12000 : S12x1000x12x1000.ShapeCasts S12000x12000
  dot_S12x1000x64_S12x1000x64_S12x1000x1000_2_2_1_1_0_0_wf : DotDims.WF S12x1000x64 S12x1000x64 S12x1000x1000 [2] [2] [1] [1] [0] [0]
  dot_S12x1000x1000_S12x1000x64_S12x1000x64_2_1_1_2_0_0_wf : DotDims.WF S12x1000x1000 S12x1000x64 S12x1000x64 [2] [1] [1] [2] [0] [0]
  dot_S1000x12x64_S1000x12x64_S1000x12x12_2_2_1_1_0_0_wf : DotDims.WF S1000x12x64 S1000x12x64 S1000x12x12 [2] [2] [1] [1] [0] [0]

variable [Facts₀]

def dot_S12x1000x64_S12x1000x64_S12x1000x1000_2_2_1_1_0_0 : DotDims S12x1000x64 S12x1000x64 S12x1000x1000 where
  lhsContracting := [2]
  rhsContracting := [2]
  lhsNonContracting := [1]
  rhsNonContracting := [1]
  lhsBatch := [0]
  rhsBatch := [0]
  wf := dot_S12x1000x64_S12x1000x64_S12x1000x1000_2_2_1_1_0_0_wf
def dot_S12x1000x1000_S12x1000x64_S12x1000x64_2_1_1_2_0_0 : DotDims S12x1000x1000 S12x1000x64 S12x1000x64 where
  lhsContracting := [2]
  rhsContracting := [1]
  lhsNonContracting := [1]
  rhsNonContracting := [2]
  lhsBatch := [0]
  rhsBatch := [0]
  wf := dot_S12x1000x1000_S12x1000x64_S12x1000x64_2_1_1_2_0_0_wf
def dot_S1000x12x64_S1000x12x64_S1000x12x12_2_2_1_1_0_0 : DotDims S1000x12x64 S1000x12x64 S1000x12x12 where
  lhsContracting := [2]
  rhsContracting := [2]
  lhsNonContracting := [1]
  rhsNonContracting := [1]
  lhsBatch := [0]
  rhsBatch := [0]
  wf := dot_S1000x12x64_S1000x12x64_S1000x12x12_2_2_1_1_0_0_wf

class Facts : Prop extends Facts₀ where

variable [Facts]
-- ==== Proof.KernelRun.lean ====
/-
  The idealized kernel's run with its result named, and the host operations between its three regions.

  The run ends with the result buffer at the last boundary's contents; the last stretch of host operations is one reshape
  of the third region's output array; the third region's second input is the transpose of the second region's output
  array and its first input is the adjacency argument as launched; the second region's input is the transpose of the
  first region's output array; the first region reads the two arguments as launched.
-/
import proofs.«164520_j68367289417954_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.RunValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

section Run

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- Every weakly fair execution ends with the result buffer at the last boundary's contents and the arguments unchanged. -/
theorem run : θ_run defs (onTc (τ := τ) (main (F := Ideal))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c)⟩)

end Run

/-- The result is the reshape of the third region's output array. -/
theorem result_eq (c : Dev nD) :
    (W6 m ρ c (Proc.devRef .tc main_v5) : S12000x12000.Idx → EReal)
      = shapeCast S12000x12000 ((dat2 (V4 m ρ) c).arrAt 2 cfg2.N : S12x1000x12x1000.Idx → EReal) shapeCasts_S12x1000x12x1000_S12000x12000 := by
  show StableHlo.after hostOps3 (W5 m ρ c) (Proc.devRef .tc main_v5) = _
  after_results
  rw [show W5 m ρ c (Proc.devRef .tc main_v4) = _ from W5_arr m ρ c 2]
  rfl

/-- The third region finds the adjacency argument as launched … -/
theorem V4_adj (c : Dev nD) : (V4 m ρ c main_arg1 : S1000x1000.Idx → BitVec 32) = m ((c.tc : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- … and the transposed output array of the second region. -/
theorem V4_swp (c : Dev nD) :
    (V4 m ρ c main_v3 : S12x1000x12.Idx → EReal)
      = transpose S12x1000x12 [2, 0, 1] ((dat1 (V2 m ρ) c).arrAt 1 cfg1.N : S1000x12x12.Idx → EReal) transposes_S1000x12x12_S12x1000x12_2_0_1 := by
  show StableHlo.after hostOps2 (W3 m ρ c) (Proc.devRef .tc main_v3) = _
  after_results
  rw [show W3 m ρ c (Proc.devRef .tc main_v2) = _ from W3_arr m ρ c 1]

/-- The second region finds the transposed output array of the first region. -/
theorem V2_s (c : Dev nD) :
    (V2 m ρ c main_v1 : S1000x12x64.Idx → EReal)
      = transpose S1000x12x64 [1, 0, 2] ((dat0 (V0 m ρ) c).arrAt 2 cfg0.N : S12x1000x64.Idx → EReal) transposes_S12x1000x64_S1000x12x64_1_0_2 := by
  show StableHlo.after hostOps1 (W1 m ρ c) (Proc.devRef .tc main_v1) = _
  after_results
  rw [show W1 m ρ c (Proc.devRef .tc main_v0) = _ from W1_arr m ρ c 2]

/-- The first region finds the two arguments as launched. -/
theorem V0_h (c : Dev nD) : (V0 m ρ c main_arg0 : S12x1000x64.Idx → EReal) = m ((c.tc : Thread nD τ).loc main_arg0) := rfl
theorem V0_adj (c : Dev nD) : (V0 m ρ c main_arg1 : S1000x1000.Idx → BitVec 32) = m ((c.tc : Thread nD τ).loc main_arg1) := rfl

end Cert.KernelIdeal.RunValue

end
-- ==== Proof.AttnSpec.lean ====
/-
  The attention stage as one function of the two argument arrays, index by index, on the extended reals.

  For a time slice `t`, a row `n` and a column `m`:
  * `score`   — the inner product of rows `n` and `m` of the slice's feature matrix, times 1/8;
  * `masked`  — the score where the adjacency entry (n, m) is positive, the fill value -999999995904 elsewhere;
  * `rowMax`  — the maximum of a row of `masked`, taken from -∞ (and once more against -∞, as both programs do);
  * `expo`    — exp (masked − rowMax);  `denom` — the row's sum of `expo`;  `weight` — expo / denom (a softmax row);
  * `node`    — the weighted sum of the slice's feature rows: Σ_m weight(t, n, m) · h(t, m, d).
  Both programs compute `node`: the only freedom between them is the arrangement of the arrays.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

variable (h : (⟨3, ![12, 1000, 64]⟩ : Shape).Idx → EReal) (a : (⟨2, ![1000, 1000]⟩ : Shape).Idx → BitVec 32)

/-- The scaled inner product of feature rows `n` and `m` of slice `t`. -/
def score (t : Fin 12) (n m : Fin 1000) : EReal :=
  (∑ d : Fin 64, h (ix3 t n d) * h (ix3 t m d)) * Ideal.ofBits .f32 0x3E000000#32

/-- The score kept on the edges of the graph, the finite fill value elsewhere. -/
def masked (t : Fin 12) (n m : Fin 1000) : EReal :=
  Scalar.select (IntOp.cmpi .sgt (a (ix2 n m)) 0#32) (score h t n m) (Ideal.ofBits .f32 0xD368D4A5#32)

/-- The maximum of row `n` of the masked scores, from -∞. -/
def rowMax (t : Fin 12) (n : Fin 1000) : EReal :=
  max (Ideal.ofBits .f32 0xFF800000#32)
    ((Finset.univ : Finset (Fin 1000)).fold max (Ideal.ofBits .f32 0xFF800000#32) (fun m => masked h a t n m))

/-- The shifted exponential. -/
def expo (t : Fin 12) (n m : Fin 1000) : EReal := Ideal.exp (masked h a t n m - rowMax h a t n)

/-- The row's normalizer. -/
def denom (t : Fin 12) (n : Fin 1000) : EReal := ∑ m : Fin 1000, expo h a t n m

/-- The softmax weight of column `m` in row `n`. -/
def weight (t : Fin 12) (n m : Fin 1000) : EReal := Ideal.div (expo h a t n m) (denom h a t n)

/-- The attention output: the weighted sum of the slice's feature rows. -/
def node (t : Fin 12) (n : Fin 1000) (d : Fin 64) : EReal := ∑ m : Fin 1000, weight h a t n m * h (ix3 t m d)

end Cert.Attn

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.MatProd.lean ====
/-
  The body's two matrix products, each into the zero accumulator, read at an index as a sum over the shared coordinate.
-/
import proofs.«164520_j68367289417954_2_alg».proof.Proof.Gen.KernelIdeal
import Idealize.ShloMosaic.Lib.ValueIdx
import Idealize.ShloMosaic.PureOps.Ideal.Laws

noncomputable section

namespace Cert.MatProd

open Idealize.ShloMosaic Idealize.ShloMosaic.ValueIdx Cert.KernelIdeal
open Cert.KernelIdeal.Facts₀ Cert.KernelIdeal.Facts

/-! ## Which coordinate of each operand a product index and a shared coordinate name -/

theorem gramDot_lhs0 (i : S1000x1000.Idx) (q : dot_S1000x64_S64x1000_S1000x1000_1_0_0_1_n_n.contr.Idx) : (dot_S1000x64_S64x1000_S1000x1000_1_0_0_1_n_n.lhsIdx i q 0).val = (i 0).val := by
  unfold DotDims.lhsIdx
  rw [dif_neg (show ¬(0 : Fin S1000x64.rank) ∈ dot_S1000x64_S64x1000_S1000x1000_1_0_0_1_n_n.lhsBatch by decide), dif_pos (show (0 : Fin S1000x64.rank) ∈ dot_S1000x64_S64x1000_S1000x1000_1_0_0_1_n_n.lhsNonContracting by decide)]
  rfl
theorem gramDot_lhs1 (i : S1000x1000.Idx) (q : dot_S1000x64_S64x1000_S1000x1000_1_0_0_1_n_n.contr.Idx) : (dot_S1000x64_S64x1000_S1000x1000_1_0_0_1_n_n.lhsIdx i q 1).val = (q ⟨0, by decide⟩).val :=
  dot_S1000x64_S64x1000_S1000x1000_1_0_0_1_n_n.lhsIdx_val_of_single rfl i q
theorem gramDot_rhs0 (i : S1000x1000.Idx) (q : dot_S1000x64_S64x1000_S1000x1000_1_0_0_1_n_n.contr.Idx) : (dot_S1000x64_S64x1000_S1000x1000_1_0_0_1_n_n.rhsIdx i q 0).val = (q ⟨0, by decide⟩).val :=
  dot_S1000x64_S64x1000_S1000x1000_1_0_0_1_n_n.rhsIdx_val_of_single rfl i q
theorem gramDot_rhs1 (i : S1000x1000.Idx) (q : dot_S1000x64_S64x1000_S1000x1000_1_0_0_1_n_n.contr.Idx) : (dot_S1000x64_S64x1000_S1000x1000_1_0_0_1_n_n.rhsIdx i q 1).val = (i 1).val := by
  unfold DotDims.rhsIdx
  rw [dif_neg (show ¬(1 : Fin S64x1000.rank) ∈ dot_S1000x64_S64x1000_S1000x1000_1_0_0_1_n_n.rhsBatch by decide), dif_pos (show (1 : Fin S64x1000.rank) ∈ dot_S1000x64_S64x1000_S1000x1000_1_0_0_1_n_n.rhsNonContracting by decide)]
  rfl

theorem outDot_lhs0 (i : S1000x64.Idx) (q : dot_S1000x1000_S1000x64_S1000x64_1_0_0_1_n_n.contr.Idx) : (dot_S1000x1000_S1000x64_S1000x64_1_0_0_1_n_n.lhsIdx i q 0).val = (i 0).val := by
  unfold DotDims.lhsIdx
  rw [dif_neg (show ¬(0 : Fin S1000x1000.rank) ∈ dot_S1000x1000_S1000x64_S1000x64_1_0_0_1_n_n.lhsBatch by decide), dif_pos (show (0 : Fin S1000x1000.rank) ∈ dot_S1000x1000_S1000x64_S1000x64_1_0_0_1_n_n.lhsNonContracting by decide)]
  rfl
theorem outDot_lhs1 (i : S1000x64.Idx) (q : dot_S1000x1000_S1000x64_S1000x64_1_0_0_1_n_n.contr.Idx) : (dot_S1000x1000_S1000x64_S1000x64_1_0_0_1_n_n.lhsIdx i q 1).val = (q ⟨0, by decide⟩).val :=
  dot_S1000x1000_S1000x64_S1000x64_1_0_0_1_n_n.lhsIdx_val_of_single rfl i q
theorem outDot_rhs0 (i : S1000x64.Idx) (q : dot_S1000x1000_S1000x64_S1000x64_1_0_0_1_n_n.contr.Idx) : (dot_S1000x1000_S1000x64_S1000x64_1_0_0_1_n_n.rhsIdx i q 0).val = (q ⟨0, by decide⟩).val :=
  dot_S1000x1000_S1000x64_S1000x64_1_0_0_1_n_n.rhsIdx_val_of_single rfl i q
theorem outDot_rhs1 (i : S1000x64.Idx) (q : dot_S1000x1000_S1000x64_S1000x64_1_0_0_1_n_n.contr.Idx) : (dot_S1000x1000_S1000x64_S1000x64_1_0_0_1_n_n.rhsIdx i q 1).val = (i 1).val := by
  unfold DotDims.rhsIdx
  rw [dif_neg (show ¬(1 : Fin S1000x64.rank) ∈ dot_S1000x1000_S1000x64_S1000x64_1_0_0_1_n_n.rhsBatch by decide), dif_pos (show (1 : Fin S1000x64.rank) ∈ dot_S1000x1000_S1000x64_S1000x64_1_0_0_1_n_n.rhsNonContracting by decide)]
  rfl

/-- A [1000, 64] by [64, 1000] product into the zero accumulator, at (n, m): the sum over the 64 shared coordinates. -/
theorem mm_gram {φ₁ φ₂ : FTy} (l : FVec Ideal S1000x64 φ₁) (r : FVec Ideal S64x1000 φ₂) (n m : Fin 1000) :
    matmul dot_S1000x64_S64x1000_S1000x1000_1_0_0_1_n_n none l r (constant S1000x1000 .f32 0x00000000#32) (ix2 n m)
      = ∑ k : Fin 64, l (ix2 n k) * r (ix2 k m) := by
  show FloatOps.matmul _ _ _ _ _ _ = _
  rw [Ideal.matmul_constant_zero_apply, ← Equiv.sum_comp (contrEquiv1 dot_S1000x64_S64x1000_S1000x1000_1_0_0_1_n_n 64 rfl rfl).symm]
  refine Finset.sum_congr rfl fun k _ => ?_
  have hk := contrEquiv1_symm_val dot_S1000x64_S64x1000_S1000x1000_1_0_0_1_n_n 64 rfl rfl k
  have el : dot_S1000x64_S64x1000_S1000x1000_1_0_0_1_n_n.lhsIdx (ix2 n m) ((contrEquiv1 dot_S1000x64_S64x1000_S1000x1000_1_0_0_1_n_n 64 rfl rfl).symm k) = ix2 n k :=
    funext fun a => Fin.ext (by
      match a with
      | ⟨0, _⟩ => exact gramDot_lhs0 _ _
      | ⟨1, _⟩ => exact (gramDot_lhs1 _ _).trans hk)
  have er : dot_S1000x64_S64x1000_S1000x1000_1_0_0_1_n_n.rhsIdx (ix2 n m) ((contrEquiv1 dot_S1000x64_S64x1000_S1000x1000_1_0_0_1_n_n 64 rfl rfl).symm k) = ix2 k m :=
    funext fun a => Fin.ext (by
      match a with
      | ⟨0, _⟩ => exact (gramDot_rhs0 _ _).trans hk
      | ⟨1, _⟩ => exact gramDot_rhs1 _ _)
  rw [el, er]

/-- A [1000, 1000] by [1000, 64] product into the zero accumulator, at (n, d): the sum over the 1000 shared coordinates. -/
theorem mm_out {φ₁ φ₂ : FTy} (l : FVec Ideal S1000x1000 φ₁) (r : FVec Ideal S1000x64 φ₂) (n : Fin 1000) (d : Fin 64) :
    matmul dot_S1000x1000_S1000x64_S1000x64_1_0_0_1_n_n none l r (constant S1000x64 .f32 0x00000000#32) (ix2 n d)
      = ∑ k : Fin 1000, l (ix2 n k) * r (ix2 k d) := by
  show FloatOps.matmul _ _ _ _ _ _ = _
  rw [Ideal.matmul_constant_zero_apply, ← Equiv.sum_comp (contrEquiv1 dot_S1000x1000_S1000x64_S1000x64_1_0_0_1_n_n 1000 rfl rfl).symm]
  refine Finset.sum_congr rfl fun k _ => ?_
  have hk := contrEquiv1_symm_val dot_S1000x1000_S1000x64_S1000x64_1_0_0_1_n_n 1000 rfl rfl k
  have el : dot_S1000x1000_S1000x64_S1000x64_1_0_0_1_n_n.lhsIdx (ix2 n d) ((contrEquiv1 dot_S1000x1000_S1000x64_S1000x64_1_0_0_1_n_n 1000 rfl rfl).symm k) = ix2 n k :=
    funext fun a => Fin.ext (by
      match a with
      | ⟨0, _⟩ => exact outDot_lhs0 _ _
      | ⟨1, _⟩ => exact (outDot_lhs1 _ _).trans hk)
  have er : dot_S1000x1000_S1000x64_S1000x64_1_0_0_1_n_n.rhsIdx (ix2 n d) ((contrEquiv1 dot_S1000x1000_S1000x64_S1000x64_1_0_0_1_n_n 1000 rfl rfl).symm k) = ix2 k d :=
    funext fun a => Fin.ext (by
      match a with
      | ⟨0, _⟩ => exact (outDot_rhs0 _ _).trans hk
      | ⟨1, _⟩ => exact outDot_rhs1 _ _)
  rw [el, er]

end Cert.MatProd

end
-- ==== Proof.KerAttn.lean ====
/-
  The first region's body at an index.

  The body reads one time slice of the features as a [1, 1000, 64] block and the whole adjacency matrix, and stores
  the attention output of that slice. Its intermediate values, each as one term of the two loaded blocks:
  the scaled Gram matrix of the slice's rows, the masked scores, the row maxima, the shifted exponentials, their row
  sums, the softmax weights, and the weighted sum of the rows. Read at an index, each is the corresponding function
  of `Cert.Attn` of any array whose slice the block is.
-/
import proofs.«164520_j68367289417954_2_alg».proof.Proof.Gen.KernelIdeal.Skeleton
import proofs.«164520_j68367289417954_2_alg».proof.Proof.AttnSpec
import proofs.«164520_j68367289417954_2_alg».proof.Proof.LibColumn
import proofs.«164520_j68367289417954_2_alg».proof.Proof.MatProd
import Idealize.ShloMosaic.Lib.Pipeline.Value
import Idealize.ShloMosaic.Lib.ValueIdx
import Idealize.ShloMosaic.Lib.ValueLayout
import Idealize.ShloMosaic.PureOps.Ideal.Laws

noncomputable section

namespace Cert.KerAttn

open Idealize.ShloMosaic Idealize.ShloMosaic.ValueIdx Cert.KernelIdeal Cert.KernelIdeal.Gen

variable (xh : Vec Ideal S1x1000x64 .f32) (xa : Vec Ideal S1000x1000 .i32)

/-- The slice's feature matrix, [1000, 64]. -/
def feat : FVec Ideal S1000x64 .bf16 :=
  truncf .bf16 (shapeCast S1000x64 xh shapeCasts_S1x1000x64_S1000x64) bitsLt_bf16_f32

/-- The scaled Gram matrix of the slice's rows. -/
def gram : FVec Ideal S1000x1000 .f32 :=
  mulf (matmul dot_S1000x64_S64x1000_S1000x1000_1_0_0_1_n_n none (feat xh)
      (transpose S64x1000 [1, 0] (feat xh) transposes_S1000x64_p1_0_S64x1000) (constant S1000x1000 .f32 0x00000000#32))
    (broadcast S1000x1000 (Scalar.ofBits .f32 0x3E000000#32))

/-- The scores kept on the edges, the fill value elsewhere. -/
def msk : FVec Ideal S1000x1000 .f32 :=
  select (cmpi .sgt xa (broadcast S1000x1000 0#32)) (gram xh) (broadcast S1000x1000 (Scalar.ofBits .f32 0xD368D4A5#32))

/-- The row maxima. -/
def rmx : FVec Ideal S1000 .f32 :=
  maximumf (broadcast S1000 (Scalar.ofBits .f32 0xFF800000#32))
    (multiReduction .maximumf [1] S1000 (msk xh xa) 0xFF800000#32 reduces_S1000x1000_S1000 (.inl rfl) rfl)

/-- The shifted exponentials. -/
def expv : FVec Ideal S1000x1000 .f32 :=
  exp (subf (msk xh xa) (broadcastTo S1000x1000 (shapeCast S1000x1 (rmx xh xa) shapeCasts_S1000_S1000x1) broadcasts_S1000x1_S1000x1000))

/-- Their row sums. -/
def rsum : FVec Ideal S1000 .f32 :=
  multiReduction .add [1] S1000 (expv xh xa) 0x00000000#32 reduces_S1000x1000_S1000 (.inl rfl) rfl

/-- The softmax weights. -/
def wgt : FVec Ideal S1000x1000 .f32 :=
  divf (expv xh xa) (broadcastTo S1000x1000 (shapeCast S1000x1 (rsum xh xa) shapeCasts_S1000_S1000x1) broadcasts_S1000x1_S1000x1000)

/-- The stored value is the weighted sum of the rows, as a [1, 1000, 64] block. -/
theorem pay_eq : k0_pay1 xh xa
    = shapeCast S1x1000x64 (matmul dot_S1000x1000_S1000x64_S1000x64_1_0_0_1_n_n none
        (truncf .bf16 (wgt xh xa) bitsLt_bf16_f32) (feat xh) (constant S1000x64 .f32 0x00000000#32)) shapeCasts_S1000x64_S1x1000x64 := rfl

/-! ## Each intermediate value at an index -/

/-- A feature entry of the slice is the block's entry behind its unit axis. -/
theorem feat_apply (n : Fin 1000) (d : Fin 64) : feat xh (ix2 n d) = xh (ix3 (0 : Fin 1) n d) :=
  shapeCast_1ab_ab_apply xh shapeCasts_S1x1000x64_S1000x64 n d

theorem gram_apply (n m : Fin 1000) :
    gram xh (ix2 n m) = (∑ d : Fin 64, xh (ix3 (0 : Fin 1) n d) * xh (ix3 (0 : Fin 1) m d)) * Ideal.ofBits .f32 0x3E000000#32 := by
  show (matmul dot_S1000x64_S64x1000_S1000x1000_1_0_0_1_n_n none (feat xh)
      (transpose S64x1000 [1, 0] (feat xh) transposes_S1000x64_p1_0_S64x1000) (constant S1000x1000 .f32 0x00000000#32) (ix2 n m))
    * Ideal.ofBits .f32 0x3E000000#32 = _
  rw [Cert.MatProd.mm_gram]
  refine congrArg (· * _) (Finset.sum_congr rfl fun d _ => ?_)
  rw [transpose_ix2_apply (feat xh) transposes_S1000x64_p1_0_S64x1000 d m, feat_apply, feat_apply]

theorem msk_apply (n m : Fin 1000) :
    msk xh xa (ix2 n m) = Scalar.select (IntOp.cmpi .sgt (xa (ix2 n m)) 0#32) (gram xh (ix2 n m)) (Ideal.ofBits .f32 0xD368D4A5#32) := rfl

/-- The index a row reduction reads: the row's index with the column inserted. -/
theorem lift_row (n : Fin 1000) (m : Fin 1000) :
    reduces_S1000x1000_S1000.lift (ix1 n) m = (ix2 n m : S1000x1000.Idx) :=
  funext fun a => Fin.ext (by match a with | ⟨0, _⟩ => rfl | ⟨1, _⟩ => rfl)

/-- A row's maximum as the reduction computes it: the fold of `max` from -∞ over the row's entries. -/
theorem rowfold (n : Fin 1000) :
    multiReduction .maximumf [1] S1000 (msk xh xa) 0xFF800000#32 reduces_S1000x1000_S1000 (.inl rfl) rfl (ix1 n)
      = (Finset.univ : Finset (Fin 1000)).fold max (Ideal.ofBits .f32 0xFF800000#32) (fun m => msk xh xa (ix2 n m)) := by
  refine (Ideal.multiReduction_maximumf_single (msk xh xa) 0xFF800000#32 reduces_S1000x1000_S1000 (.inl rfl) rfl (ix1 n)).trans ?_
  have hrow : (msk xh xa ∘ reduces_S1000x1000_S1000.lift (ix1 n)) = fun m : Fin 1000 => msk xh xa (ix2 n m) :=
    funext fun (m : Fin 1000) => congrArg (msk xh xa) (lift_row n m)
  rw [hrow]
  rfl

theorem rmx_apply (n : Fin 1000) :
    rmx xh xa (ix1 n) = max (Ideal.ofBits .f32 0xFF800000#32)
      ((Finset.univ : Finset (Fin 1000)).fold max (Ideal.ofBits .f32 0xFF800000#32) (fun m => msk xh xa (ix2 n m))) := by
  unfold rmx
  rw [maximumf_apply]
  exact congrArg (max (Ideal.ofBits .f32 0xFF800000#32)) (rowfold xh xa n)

/-- The exponential of an array, at an index. -/
theorem exp_at {s : Shape} (v : FVec Ideal s .f32) (i : s.Idx) : exp v i = Ideal.exp (v i) := rfl

theorem expv_apply (n m : Fin 1000) :
    expv xh xa (ix2 n m) = Ideal.exp (msk xh xa (ix2 n m) - rmx xh xa (ix1 n)) := by
  unfold expv
  rw [exp_at, subf_apply, Cert.LibColumn.broadcastTo_a1_ab_apply, Cert.LibColumn.shapeCast_a_a1_apply]

theorem rsum_apply (n : Fin 1000) : rsum xh xa (ix1 n) = ∑ m : Fin 1000, expv xh xa (ix2 n m) := by
  unfold rsum
  refine (Ideal.multiReduction_add_single (expv xh xa) 0x00000000#32 reduces_S1000x1000_S1000 (.inl rfl) rfl (ix1 n)).trans ?_
  refine Finset.sum_congr rfl fun m _ => ?_
  exact congrArg (expv xh xa) (lift_row n m)

theorem wgt_apply (n m : Fin 1000) :
    wgt xh xa (ix2 n m) = Ideal.div (expv xh xa (ix2 n m)) (rsum xh xa (ix1 n)) := by
  unfold wgt
  rw [divf_apply, Cert.LibColumn.broadcastTo_a1_ab_apply, Cert.LibColumn.shapeCast_a_a1_apply]

/-- The stored block at (0, n, d): the weighted sum of the slice's rows. -/
theorem pay_apply (n : Fin 1000) (d : Fin 64) :
    k0_pay1 xh xa (ix3 (0 : Fin 1) n d) = ∑ m : Fin 1000, wgt xh xa (ix2 n m) * xh (ix3 (0 : Fin 1) m d) := by
  rw [pay_eq, shapeCast_ab_1ab_apply, Cert.MatProd.mm_out]
  refine Finset.sum_congr rfl fun m _ => ?_
  rw [truncf_apply, feat_apply]

/-! ## Against the specification: the block is slice `t` of an array `h` -/

variable (h : S12x1000x64.Idx → EReal) (t : Fin 12) (hh : ∀ (n : Fin 1000) (d : Fin 64), xh (ix3 (0 : Fin 1) n d) = h (ix3 t n d))
include hh

theorem gram_spec (n m : Fin 1000) : gram xh (ix2 n m) = Cert.Attn.score h t n m := by
  rw [gram_apply]; unfold Cert.Attn.score
  refine congrArg (· * _) (Finset.sum_congr rfl fun d _ => ?_)
  rw [hh, hh]

theorem msk_spec (n m : Fin 1000) : msk xh xa (ix2 n m) = Cert.Attn.masked h xa t n m := by
  rw [msk_apply, gram_spec xh h t hh]; rfl

theorem rmx_spec (n : Fin 1000) : rmx xh xa (ix1 n) = Cert.Attn.rowMax h xa t n := by
  rw [rmx_apply]; unfold Cert.Attn.rowMax
  have hrow : (fun m : Fin 1000 => msk xh xa (ix2 n m)) = fun m : Fin 1000 => Cert.Attn.masked h xa t n m :=
    funext fun (m : Fin 1000) => msk_spec xh xa h t hh n m
  rw [hrow]

theorem expv_spec (n m : Fin 1000) : expv xh xa (ix2 n m) = Cert.Attn.expo h xa t n m := by
  rw [expv_apply, msk_spec xh xa h t hh, rmx_spec xh xa h t hh]; rfl

theorem rsum_spec (n : Fin 1000) : rsum xh xa (ix1 n) = Cert.Attn.denom h xa t n := by
  rw [rsum_apply]; unfold Cert.Attn.denom
  exact Finset.sum_congr rfl fun m _ => expv_spec xh xa h t hh n m

theorem wgt_spec (n m : Fin 1000) : wgt xh xa (ix2 n m) = Cert.Attn.weight h xa t n m := by
  rw [wgt_apply, expv_spec xh xa h t hh, rsum_spec xh xa h t hh]; rfl

/-- The body's stored block, at (0, n, d), is the attention output of slice `t` at (n, d). -/
theorem pay_spec (n : Fin 1000) (d : Fin 64) : k0_pay1 xh xa (ix3 (0 : Fin 1) n d) = Cert.Attn.node h xa t n d := by
  rw [pay_apply]; unfold Cert.Attn.node
  refine Finset.sum_congr rfl fun m _ => ?_
  rw [wgt_spec xh xa h t hh, hh]

end Cert.KerAttn

end
-- ==== Proof.RefAttn.lean ====
/-
  The reference's attention stage read at an index: its node-feature array at (t, n, d) is `Attn.node`.

  The reference computes the stage one whole-array operation at a time. Each lemma below reads one of its
  intermediate arrays at explicit coordinates and identifies the entry with the corresponding function of
  `Cert.Attn`: the scaled score, the masked score, the row maximum, the shifted exponential, the row's
  normalizer, the softmax weight and finally the weighted sum of feature rows.
-/
import proofs.«164520_j68367289417954_2_alg».proof.Proof.Gen.ReferenceIdeal.Read
import proofs.«164520_j68367289417954_2_alg».proof.Proof.AttnSpec
import Idealize.ShloMosaic.PureOps.Reduce

noncomputable section

namespace Cert.RefAttn

open Idealize.ShloMosaic Idealize.ShloMosaic.ValueIdx Cert.ReferenceIdeal Cert.ReferenceIdeal.Read

/-! ## The operations' index maps at explicit coordinates -/

/-- The left factor of the score at (t, n, m), contraction coordinate k, is feature (t, n, k). -/
theorem lidx_v0_ix (t : Fin 12) (n m : Fin 1000) (k : Fin 64) : lidx_main_v0 (ix3 t n m) k = ix3 t n k :=
  funext fun a => Fin.ext (by match a with | ⟨0, _⟩ => rfl | ⟨1, _⟩ => rfl | ⟨2, _⟩ => rfl)

/-- The right factor of the score at (t, n, m), contraction coordinate k, is feature (t, m, k). -/
theorem ridx_v0_ix (t : Fin 12) (n m : Fin 1000) (k : Fin 64) : ridx_main_v0 (ix3 t n m) k = ix3 t m k :=
  funext fun a => Fin.ext (by match a with | ⟨0, _⟩ => rfl | ⟨1, _⟩ => rfl | ⟨2, _⟩ => rfl)

/-- The mask at (t, n, m) reads the adjacency entry (n, m): the time coordinate is broadcast away. -/
theorem idx_adj_ix (t : Fin 12) (n m : Fin 1000) : idx_main_v3 (idx_main_call0_v1 (ix3 t n m)) = ix2 n m :=
  funext fun a => Fin.ext (by match a with | ⟨0, _⟩ => rfl | ⟨1, _⟩ => rfl)

/-- The row maximum broadcast to (t, n, m) is the row statistic at (t, n). -/
theorem idx_rowMax_ix (t : Fin 12) (n m : Fin 1000) : idx_main_v10 (idx_main_v11 (ix3 t n m)) = ix2 t n :=
  funext fun a => Fin.ext (by match a with | ⟨0, _⟩ => rfl | ⟨1, _⟩ => rfl)

/-- The normalizer broadcast to (t, n, m) is the row statistic at (t, n). -/
theorem idx_denom_ix (t : Fin 12) (n m : Fin 1000) : idx_main_v15 (idx_main_v16 (ix3 t n m)) = ix2 t n :=
  funext fun a => Fin.ext (by match a with | ⟨0, _⟩ => rfl | ⟨1, _⟩ => rfl)

/-- The k-th summand of the row sum at (t, n) is entry (t, n, k). -/
theorem idx_v14_ix (t : Fin 12) (n k : Fin 1000) : idx_main_v14 (ix2 t n) k = ix3 t n k :=
  funext fun a => Fin.ext (by match a with | ⟨0, _⟩ => rfl | ⟨1, _⟩ => rfl | ⟨2, _⟩ => rfl)

/-- The left factor of the output at (t, n, d), contraction coordinate k, is weight (t, n, k). -/
theorem lidx_v18_ix (t : Fin 12) (n : Fin 1000) (d : Fin 64) (k : Fin 1000) : lidx_main_v18 (ix3 t n d) k = ix3 t n k :=
  funext fun a => Fin.ext (by match a with | ⟨0, _⟩ => rfl | ⟨1, _⟩ => rfl | ⟨2, _⟩ => rfl)

/-- The right factor of the output at (t, n, d), contraction coordinate k, is feature (t, k, d). -/
theorem ridx_v18_ix (t : Fin 12) (n : Fin 1000) (d : Fin 64) (k : Fin 1000) : ridx_main_v18 (ix3 t n d) k = ix3 t k d :=
  funext fun a => Fin.ext (by match a with | ⟨0, _⟩ => rfl | ⟨1, _⟩ => rfl | ⟨2, _⟩ => rfl)

/-- Reducing the last axis of a [12, 1000, 1000] array leaves a [12, 1000] one. -/
theorem reduces_last : S12x1000x1000.Reduces [2] S12x1000 := by decide

/-- The index over (t, n) with coordinate k inserted on the reduced axis is (t, n, k). -/
theorem lift_ix (t : Fin 12) (n k : Fin 1000) : reduces_last.lift (ix2 t n) k = ix3 t n k :=
  funext fun a => Fin.ext (by match a with | ⟨0, _⟩ => rfl | ⟨1, _⟩ => rfl | ⟨2, _⟩ => rfl)

/-! ## The stage's arrays at explicit coordinates -/

section

variable (x0 : S12x1000x64.Idx → EReal) (x1 : S1000x1000.Idx → BitVec 32)

/-- The scaled product of the feature matrix with its transpose. -/
theorem score_eq (t : Fin 12) (n m : Fin 1000) :
    val_main_v2 (F := Ideal) x0 (ix3 t n m) = Cert.Attn.score x0 t n m := by
  rw [val_main_v2_apply, val_main_v0_apply, val_main_v1_apply, val_main_cst_apply]
  simp only [lidx_v0_ix, ridx_v0_ix, Ideal.mulf_def, Ideal.ofBits_def]
  rfl

/-- The score kept where the adjacency entry is positive, the fill value elsewhere. -/
theorem masked_eq (t : Fin 12) (n m : Fin 1000) :
    val_main_v6 (F := Ideal) x0 x1 (ix3 t n m) = Cert.Attn.masked x0 x1 t n m := by
  rw [val_main_v6_apply, val_main_call0_v1_apply, val_main_v5_apply, val_main_v3_apply, val_main_v4_apply,
    val_main_c_apply, val_main_call0_v2_apply, val_main_call0_v0_apply, val_main_cst_0_apply, score_eq, idx_adj_ix]
  rfl

/-- The row maximum: the fold of `max` from -∞ over the row, then once more against -∞. -/
theorem rowMax_eq (t : Fin 12) (n : Fin 1000) :
    val_main_v9 (F := Ideal) x0 x1 (ix2 t n) = Cert.Attn.rowMax x0 x1 t n := by
  rw [val_main_v9_apply, val_main_v8_apply, val_main_cst_2_apply]
  unfold val_main_v7
  rw [Host.reduce_eq_fold_single (FloatOps.maximumf (F := Ideal) (φ := .f32)) (val_main_v6 (F := Ideal) x0 x1)
    (val_main_cst_1 (F := Ideal)) Gen.reducesTo_S12x1000x1000_S12x1000_d2 reduces_last Gen.h_S_ (ix2 t n), val_main_cst_1_apply]
  have hrow : (val_main_v6 (F := Ideal) x0 x1 ∘ reduces_last.lift (ix2 t n)) = fun m : Fin 1000 => Cert.Attn.masked x0 x1 t n m :=
    funext fun (m : Fin 1000) =>
      (congrArg (val_main_v6 (F := Ideal) x0 x1) (lift_ix t n m)).trans (masked_eq x0 x1 t n m)
  rw [hrow]
  rfl

/-- The exponential of the masked score less its row's maximum. -/
theorem expo_eq (t : Fin 12) (n m : Fin 1000) :
    val_main_v13 (F := Ideal) x0 x1 (ix3 t n m) = Cert.Attn.expo x0 x1 t n m := by
  rw [val_main_v13_apply, val_main_v12_apply, val_main_v11_apply, val_main_v10_apply, idx_rowMax_ix, masked_eq, rowMax_eq]
  rfl

/-- The row's sum of exponentials: the sum starts from the zero word, which is 0. -/
theorem denom_eq (t : Fin 12) (n : Fin 1000) :
    val_main_v14 (F := Ideal) x0 x1 (ix2 t n) = Cert.Attn.denom x0 x1 t n := by
  rw [val_main_v14_apply, val_main_cst_3_apply, Ideal.ofBits_def, Ideal.ofBits_zero_f32, zero_add]
  unfold Cert.Attn.denom
  exact Finset.sum_congr rfl fun k _ => by rw [idx_v14_ix, expo_eq]

/-- The softmax weight: the exponential over the row's sum. -/
theorem weight_eq (t : Fin 12) (n m : Fin 1000) :
    val_main_v17 (F := Ideal) x0 x1 (ix3 t n m) = Cert.Attn.weight x0 x1 t n m := by
  rw [val_main_v17_apply, val_main_v16_apply, val_main_v15_apply, idx_denom_ix, expo_eq, denom_eq]
  rfl

end

/-- The node features: the weights times the feature matrix. -/
theorem node_eq (x0 : S12x1000x64.Idx → EReal) (x1 : S1000x1000.Idx → BitVec 32) (t : Fin 12) (n : Fin 1000) (d : Fin 64) :
    val_main_v18 (F := Ideal) x0 x1 (ix3 t n d) = Cert.Attn.node x0 x1 t n d := by
  rw [val_main_v18_apply]
  unfold Cert.Attn.node
  exact Finset.sum_congr rfl fun k _ => by rw [lidx_v18_ix, ridx_v18_ix, weight_eq]

end Cert.RefAttn

end
-- ==== Proof.Attention.lean ====
/-
  The first region (adjacency-masked softmax attention, one time slice per grid point): its output array after the
  run is the reference's node-feature stage, when its two input arrays are the argument arrays.

  Point `t` of the 12 reads slice `t` of the features as a [1, 1000, 64] block and the whole adjacency matrix, and
  writes slice `t` of the output; the 12 written slices tile the output array.
-/
import proofs.«164520_j68367289417954_2_alg».proof.Proof.Gen.KernelIdeal.Frame
import proofs.«164520_j68367289417954_2_alg».proof.Proof.Gen.ReferenceIdeal.Read
import proofs.«164520_j68367289417954_2_alg».proof.Proof.KerAttn
import proofs.«164520_j68367289417954_2_alg».proof.Proof.RefAttn
import Idealize.ShloMosaic.Lib.Pipeline.Value
import Idealize.ShloMosaic.Lib.ValueIdx

set_option maxRecDepth 16384

noncomputable section

namespace Cert.Attention

open Idealize.ShloMosaic Idealize.ShloMosaic.TcCoe Idealize.ShloMosaic.ValueIdx Idealize.SL.Sem
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The attention output as one array: entry (t, n, d) is the weighted sum of slice `t`'s feature rows. -/
def nodes (x0 : S12x1000x64.Idx → EReal) (x1 : S1000x1000.Idx → BitVec 32) : S12x1000x64.Idx → EReal :=
  fun i => Cert.Attn.node x0 x1 (i 0) (i 1) (i 2)

/-- It is the reference's node-feature stage. -/
theorem nodes_eq (x0 : S12x1000x64.Idx → EReal) (x1 : S1000x1000.Idx → BitVec 32) :
    nodes x0 x1 = Cert.ReferenceIdeal.Read.val_main_v18 (F := Ideal) x0 x1 := by
  funext i
  obtain ⟨t, n, d, rfl⟩ : ∃ (t : Fin 12) (n : Fin 1000) (d : Fin 64), i = ix3 t n d := ⟨i 0, i 1, i 2, eq_ix3 i⟩
  exact (Cert.RefAttn.node_eq x0 x1 t n d).symm

/-- The printed index maps, decided over the grid: the feature and output windows' block index is (point, 0, 0), the
    adjacency window's is (0, 0). -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 3) = t.val
    ∧ win0_2.index t (1 : Fin 3) = 0
    ∧ win0_2.index t (2 : Fin 3) = 0 :=
  (by decide +kernel : ∀ t : Fin grid0.N, _)

/-- The body's result on a block that holds slice `T` of the features `x0`, beside the adjacency matrix `x1`, at an
    index `j` of the block, is the attention output at the array index `i` with the same row and column in slice `T`. -/
theorem pay_block (xh : Vec Ideal S1x1000x64 .f32) (xa : Vec Ideal S1000x1000 .i32)
    (x0 : S12x1000x64.Idx → EReal) (x1 : S1000x1000.Idx → BitVec 32) (T : Fin 12)
    (hh : ∀ (n : Fin 1000) (d : Fin 64), xh (ix3 (0 : Fin 1) n d) = x0 (ix3 T n d)) (ha : xa = x1)
    (j : S1x1000x64.Idx) (i : S12x1000x64.Idx)
    (hi0 : (i 0).val = T.val) (hi1 : (i 1).val = (j 1).val) (hi2 : (i 2).val = (j 2).val) :
    k0_pay1 xh xa j = nodes x0 x1 i := by
  subst ha
  obtain ⟨u, n, d, rfl⟩ : ∃ (u : Fin 1) (n : Fin 1000) (d : Fin 64), j = ix3 u n d := ⟨j 0, j 1, j 2, eq_ix3 j⟩
  obtain ⟨T', n', d', rfl⟩ : ∃ (T' : Fin 12) (n' : Fin 1000) (d' : Fin 64), i = ix3 T' n' d' := ⟨i 0, i 1, i 2, eq_ix3 i⟩
  obtain rfl : u = 0 := Subsingleton.elim _ _
  obtain rfl : T' = T := Fin.ext hi0
  obtain rfl : n' = n := Fin.ext hi1
  obtain rfl : d' = d := Fin.ext hi2
  exact Cert.KerAttn.pay_spec xh xa x0 T' hh n' d'

/-- WHAT POINT `t` WRITES BACK is block `t` of the attention output of the arrays the region finds. -/
theorem flushed_eq (V : (c : Dev nD) → (b : Ref sig .tc) → Buf (Elt Ideal) ((c : Thread nD τ).loc b)) (c : Dev nD)
    (x0 : S12x1000x64.Idx → EReal) (x1 : S1000x1000.Idx → BitVec 32)
    (hx0 : (V c main_arg0 : S12x1000x64.Idx → EReal) = x0) (hx1 : (V c main_arg1 : S1000x1000.Idx → BitVec 32) = x1)
    (t : Fin cfg0.N) :
    (dat0 (F := Ideal) V c).flushed 2 t = ((cfg0.win 2).blk t).view.read (Elt Ideal) (nodes x0 x1) := by
  show (cfg0.win 2).cut (grid0.coords t) ((dat0 (F := Ideal) V c).after 2 t) = _
  rw [after0_2]
  unfold out0_2
  rw [View.canon_unit_zero hz3]
  simp only [View.ld_unit_zero (S := S1x1000x64) hz3, View.ld_unit_zero (S := S1000x1000) hz2]
  obtain ⟨e0, e1, e2, e3, e4, e5, e6, e7⟩ := idx_facts t
  have hN : grid0.N = 12 := N_0
  have ht : t.val < 12 := by have h' : t.val < grid0.N := t.isLt; omega
  funext j
  show k0_pay1 (iblk0 V c 0 t) (iblk0 V c 1 t) j = nodes x0 x1 (((cfg0.win 2).blk t).view.emb j)
  refine pay_block (iblk0 V c 0 t) (iblk0 V c 1 t) x0 x1 ⟨t.val, ht⟩ (fun n d => ?_) ?_ j _ ?_ ?_ ?_
  · show (V c main_arg0 : S12x1000x64.Idx → EReal) (((cfg0.win 0).blk t).view.emb (ix3 (0 : Fin 1) n d)) = x0 (ix3 ⟨t.val, ht⟩ n d)
    rw [hx0]
    refine congrArg x0 (funext fun a => Fin.ext ?_)
    match a with
    | ⟨0, _⟩ => show win0_0.index t (0 : Fin 3) * 1 + 1 * 0 = t.val; omega
    | ⟨1, _⟩ => show win0_0.index t (1 : Fin 3) * 1000 + 1 * n.val = n.val; omega
    | ⟨2, _⟩ => show win0_0.index t (2 : Fin 3) * 64 + 1 * d.val = d.val; omega
  · funext y
    show (V c main_arg1 : S1000x1000.Idx → BitVec 32) (((cfg0.win 1).blk t).view.emb y) = x1 y
    rw [hx1]
    refine congrArg x1 (funext fun a => Fin.ext ?_)
    match a with
    | ⟨0, _⟩ => show win0_1.index t (0 : Fin 2) * 1000 + 1 * (y 0).val = (y 0).val; omega
    | ⟨1, _⟩ => show win0_1.index t (1 : Fin 2) * 1000 + 1 * (y 1).val = (y 1).val; omega
  · show win0_2.index t (0 : Fin 3) * 1 + 1 * (j 0).val = t.val
    have hj : (j 0).val < 1 := (j 0).isLt
    omega
  · show win0_2.index t (1 : Fin 3) * 1000 + 1 * (j 1).val = (j 1).val; omega
  · show win0_2.index t (2 : Fin 3) * 64 + 1 * (j 2).val = (j 2).val; omega

/-- An index of the output is in point `t`'s block iff each coordinate is in the block's range on its axis. -/
theorem mem_blk (t : Fin cfg0.N) (i : S12x1000x64.Idx) :
    i ∈ ((cfg0.win 2).blk t).view.set ↔ ∀ a : Fin 3, win0_2.index t a * S1x1000x64.size a ≤ (i a).val ∧ (i a).val < win0_2.index t a * S1x1000x64.size a + S1x1000x64.size a := by
  show i ∈ ((View.whole main_v0).slice (win0_2.rect t)).set ↔ _
  rw [View.set_slice_whole, Rect.mem_set_unit]
  exact Iff.rfl

/-- Every index of the output is in some point's block: slice `t` is point `t`'s. -/
theorem cover (i : S12x1000x64.Idx) :
    ∃ t : Fin cfg0.N, (cfg0.win 2).flush t = true ∧ i ∈ ((cfg0.win 2).blk t).view.set := by
  have hi0 : (i 0).val < 12 := (i 0).isLt
  have hi1 : (i 1).val < 1000 := (i 1).isLt
  have hi2 : (i 2).val < 64 := (i 2).isLt
  have hN : grid0.N = 12 := N_0
  obtain ⟨t, ht⟩ : ∃ t : Fin cfg0.N, t.val = (i 0).val := ⟨⟨(i 0).val, by show (i 0).val < grid0.N; omega⟩, rfl⟩
  obtain ⟨e0, e1, e2, e3, e4, e5, e6, e7⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1000 ≤ (i 1).val ∧ (i 1).val < win0_2.index t (1 : Fin 3) * 1000 + 1000; omega
  | ⟨2, _⟩ => show win0_2.index t (2 : Fin 3) * 64 ≤ (i 2).val ∧ (i 2).val < win0_2.index t (2 : Fin 3) * 64 + 64; omega

/-! ## The region's output array -/

theorem final0 (V : (c : Dev nD) → (b : Ref sig .tc) → Buf (Elt Ideal) ((c : Thread nD τ).loc b)) (c : Dev nD)
    (x0 : Cert.ReferenceIdeal.S12x1000x64.Idx → EReal) (x1 : Cert.ReferenceIdeal.S1000x1000.Idx → BitVec 32)
    (hx0 : (V c main_arg0 : S12x1000x64.Idx → EReal) = x0) (hx1 : (V c main_arg1 : S1000x1000.Idx → BitVec 32) = x1) :
    ((dat0 (F := Ideal) V c).arrAt 2 cfg0.N : S12x1000x64.Idx → EReal) = Cert.ReferenceIdeal.Read.val_main_v18 (F := Ideal) x0 x1 :=
  ((dat0 (F := Ideal) V c).arrAt_eq_of_cover 2 (nodes x0 x1) (fun t _ => flushed_eq V c x0 x1 hx0 hx1 t) cover).trans (nodes_eq x0 x1)

end Cert.Attention

end
-- ==== Proof.Temporal.lean ====
/-
  The second region (temporal scores through the logistic function): its output array after the run is the reference's
  stage of the same name, when its input array is the reference's transposed node features.
-/
import proofs.«164520_j68367289417954_2_alg».proof.Proof.Gen.KernelIdeal.Frame
import proofs.«164520_j68367289417954_2_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.Temporal

open Idealize.ShloMosaic Idealize.ShloMosaic.TcCoe Idealize.ShloMosaic.ValueIdx Idealize.SL.Sem
open Cert.KernelIdeal Cert.KernelIdeal.Gen

/-! ## The specification

For every node the twelve time slices' feature rows are compared pairwise: the gate between slices `p` and `q` is the
logistic function of one eighth of the inner product of the two rows. -/

/-- The gate of node `n` between time slices `p` and `q`, from the node-major features `S`. -/
def gate (S : S1000x12x64.Idx → EReal) (n : Fin 1000) (p q : Fin 12) : EReal :=
  Ideal.logistic ((∑ d : Fin 64, S (ix3 n p d) * S (ix3 n q d)) * Ideal.ofBits .f32 0x3E000000#32)

/-- Every gate, as one array indexed by (node, slice, slice). -/
def gates (S : S1000x12x64.Idx → EReal) : S1000x12x12.Idx → EReal := fun i => gate S (i 0) (i 1) (i 2)

/-! ## The reference's stage is the specification -/

/-- The reference computes the logistic function as `1 / (1 + exp (-z))` with `z` an eighth of the batched inner
    product; that expression is the logistic function's definition, and the literal `1.0` is the number one. -/
theorem ref_apply (x0 : Cert.ReferenceIdeal.S12x1000x64.Idx → EReal) (x1 : Cert.ReferenceIdeal.S1000x1000.Idx → BitVec 32)
    (i : S1000x12x12.Idx) :
    Cert.ReferenceIdeal.Read.val_main_v28 (F := Ideal) x0 x1 i
      = gate (Cert.ReferenceIdeal.Read.val_main_v19 (F := Ideal) x0 x1) (i 0) (i 1) (i 2) := by
  have el : ∀ k : Fin 64, Cert.ReferenceIdeal.Read.lidx_main_v20 i k = ix3 (i 0) (i 1) k := fun k =>
    funext fun a => Fin.ext (by match a with | ⟨0, _⟩ => rfl | ⟨1, _⟩ => rfl | ⟨2, _⟩ => rfl)
  have er : ∀ k : Fin 64, Cert.ReferenceIdeal.Read.ridx_main_v20 i k = ix3 (i 0) (i 2) k := fun k =>
    funext fun a => Fin.ext (by match a with | ⟨0, _⟩ => rfl | ⟨1, _⟩ => rfl | ⟨2, _⟩ => rfl)
  rw [Cert.ReferenceIdeal.Read.val_main_v28_apply, Cert.ReferenceIdeal.Read.val_main_v27_apply,
    Cert.ReferenceIdeal.Read.val_main_cst_6_apply, Cert.ReferenceIdeal.Read.val_main_v26_apply,
    Cert.ReferenceIdeal.Read.val_main_v25_apply, Cert.ReferenceIdeal.Read.val_main_cst_5_apply,
    Cert.ReferenceIdeal.Read.val_main_v24_apply, Cert.ReferenceIdeal.Read.val_main_v23_apply,
    Cert.ReferenceIdeal.Read.val_main_v22_apply, Cert.ReferenceIdeal.Read.val_main_v21_apply,
    Cert.ReferenceIdeal.Read.val_main_cst_4_apply, Cert.ReferenceIdeal.Read.val_main_v20_apply]
  simp only [el, er, Ideal.ofBits_def, Ideal.ofBits_one_f32]
  rfl

/-! ## The kernel's arithmetic at an index -/

/-- The batched product's dimension numbers: batch axis 0, rows axis 1, contraction over axis 2 of both operands. -/
abbrev gram : DotDims S200x12x64 S200x12x64 S200x12x12 := dot_S200x12x64_S200x12x64_S200x12x12_2_2_1_1_0_0

/-- The left operand is read at (node, first slice, feature) … -/
theorem lhs_0 (i : S200x12x12.Idx) (q : gram.contr.Idx) : (gram.lhsIdx i q 0).val = (i 0).val := by
  unfold DotDims.lhsIdx
  rw [dif_pos (show (0 : Fin S200x12x64.rank) ∈ gram.lhsBatch by decide)]
  rfl
theorem lhs_1 (i : S200x12x12.Idx) (q : gram.contr.Idx) : (gram.lhsIdx i q 1).val = (i 1).val := by
  unfold DotDims.lhsIdx
  rw [dif_neg (show ¬(1 : Fin S200x12x64.rank) ∈ gram.lhsBatch by decide), dif_pos (show (1 : Fin S200x12x64.rank) ∈ gram.lhsNonContracting by decide)]
  rfl
theorem lhs_2 (i : S200x12x12.Idx) (q : gram.contr.Idx) : (gram.lhsIdx i q 2).val = (q ⟨0, by decide⟩).val :=
  gram.lhsIdx_val_of_single rfl i q
/-- … and the right operand at (node, second slice, feature). -/
theorem rhs_0 (i : S200x12x12.Idx) (q : gram.contr.Idx) : (gram.rhsIdx i q 0).val = (i 0).val := by
  unfold DotDims.rhsIdx
  rw [dif_pos (show (0 : Fin S200x12x64.rank) ∈ gram.rhsBatch by decide)]
  rfl
theorem rhs_1 (i : S200x12x12.Idx) (q : gram.contr.Idx) : (gram.rhsIdx i q 1).val = (i 2).val := by
  unfold DotDims.rhsIdx
  rw [dif_neg (show ¬(1 : Fin S200x12x64.rank) ∈ gram.rhsBatch by decide), dif_pos (show (1 : Fin S200x12x64.rank) ∈ gram.rhsNonContracting by decide)]
  rfl
theorem rhs_2 (i : S200x12x12.Idx) (q : gram.contr.Idx) : (gram.rhsIdx i q 2).val = (q ⟨0, by decide⟩).val :=
  gram.rhsIdx_val_of_single rfl i q

/-- The batched product of a block with itself, into the zero accumulator, at (node, slice, slice): the inner product
    of the node's two feature rows. -/
theorem gram_apply (y : FVec Ideal S200x12x64 .bf16) (b : Fin 200) (p q : Fin 12) :
    FloatOps.matmul gram none y y (constant (F := Ideal) S200x12x12 .f32 0x00000000#32) (ix3 b p q)
      = ∑ d : Fin 64, y (ix3 b p d) * y (ix3 b q d) := by
  rw [Ideal.matmul_constant_zero_apply, ← Equiv.sum_comp (contrEquiv1 gram 64 rfl rfl).symm]
  refine Finset.sum_congr rfl fun k _ => ?_
  have hk := contrEquiv1_symm_val gram 64 rfl rfl k
  have el : gram.lhsIdx (ix3 b p q) ((contrEquiv1 gram 64 rfl rfl).symm k) = ix3 b p k := funext fun a => Fin.ext (by
    match a with
    | ⟨0, _⟩ => exact lhs_0 _ _
    | ⟨1, _⟩ => exact lhs_1 _ _
    | ⟨2, _⟩ => exact (lhs_2 _ _).trans hk)
  have er : gram.rhsIdx (ix3 b p q) ((contrEquiv1 gram 64 rfl rfl).symm k) = ix3 b q k := funext fun a => Fin.ext (by
    match a with
    | ⟨0, _⟩ => exact rhs_0 _ _
    | ⟨1, _⟩ => exact rhs_1 _ _
    | ⟨2, _⟩ => exact (rhs_2 _ _).trans hk)
  rw [el, er]

/-- The body's result at (node, slice, slice) of its block: the format change is the identity on extended reals, the
    shape cast is of a shape to itself, the product is `gram_apply`, the scale and the logistic function act entrywise. -/
theorem pay_apply (x : Vec Ideal S200x12x64 .f32) (b : Fin 200) (p q : Fin 12) :
    k1_pay1 x (ix3 b p q)
      = Ideal.logistic ((∑ d : Fin 64, x (ix3 b p d) * x (ix3 b q d)) * Ideal.ofBits .f32 0x3E000000#32) := by
  unfold k1_pay1
  rw [shapeCast_self]
  show Ideal.logistic (FloatOps.matmul gram none (truncf .bf16 x bitsLt_bf16_f32) (truncf .bf16 x bitsLt_bf16_f32)
      (constant (F := Ideal) S200x12x12 .f32 0x00000000#32) (ix3 b p q) * Ideal.ofBits .f32 0x3E000000#32) = _
  rw [gram_apply]
  rfl

/-! ## From blocks to the array

The grid has five points; point `t` reads nodes `200 t … 200 t + 199` of the features and writes the same nodes of the
gates, every slice of each. -/

theorem hz : (![0, 0, 0] : Fin 3 → Nat) = fun _ => 0 := funext fun a => by fin_cases a <;> rfl

/-- The printed index maps, decided over the grid: both windows' block index is (point, 0, 0). -/
theorem idx_facts : ∀ t : Fin cfg1.N, win1_0.index t (0 : Fin 3) = t.val
    ∧ win1_0.index t (1 : Fin 3) = 0
    ∧ win1_0.index t (2 : Fin 3) = 0
    ∧ win1_1.index t (0 : Fin 3) = t.val
    ∧ win1_1.index t (1 : Fin 3) = 0
    ∧ win1_1.index t (2 : Fin 3) = 0 :=
  (by decide +kernel : ∀ t : Fin grid1.N, _)

/-- The body's result on a block of the features that holds nodes `200 T … 200 T + 199` of `S`, at an index `j` of
    the block, is the gate of `S` at the array index `i` that sits `200 T` nodes further on. -/
theorem pay_block (x : Vec Ideal S200x12x64 .f32) (S : S1000x12x64.Idx → EReal) (T : Nat) (j : S200x12x12.Idx)
    (i : S1000x12x12.Idx)
    (hx : ∀ (b : Fin 200) (p : Fin 12) (d : Fin 64) (n : Fin 1000), n.val = T * 200 + b.val → x (ix3 b p d) = S (ix3 n p d))
    (hi0 : (i 0).val = T * 200 + (j 0).val) (hi1 : (i 1).val = (j 1).val) (hi2 : (i 2).val = (j 2).val) :
    k1_pay1 x j = gates S i := by
  obtain ⟨b, p, q, rfl⟩ : ∃ (b : Fin 200) (p q : Fin 12), j = ix3 b p q := ⟨j 0, j 1, j 2, eq_ix3 j⟩
  obtain ⟨n, p', q', rfl⟩ : ∃ (n : Fin 1000) (p' q' : Fin 12), i = ix3 n p' q' := ⟨i 0, i 1, i 2, eq_ix3 i⟩
  obtain rfl : p' = p := Fin.ext hi1
  obtain rfl : q' = q := Fin.ext hi2
  rw [pay_apply]
  show _ = gate S n p' q'
  unfold gate
  refine congrArg (fun z => Ideal.logistic (z * Ideal.ofBits .f32 0x3E000000#32)) (Finset.sum_congr rfl fun d _ => ?_)
  rw [hx b p' d n hi0, hx b q' d n hi0]

/-- WHAT POINT `t` WRITES BACK is block `t` of the gates of the features the region finds in its input array. -/
theorem flushed_eq (V : (c : Dev nD) → (b : Ref sig .tc) → Buf (Elt Ideal) ((c : Thread nD τ).loc b)) (c : Dev nD)
    (S : S1000x12x64.Idx → EReal) (hs : (V c main_v1 : S1000x12x64.Idx → EReal) = S) (t : Fin cfg1.N) :
    (dat1 (F := Ideal) V c).flushed 1 t = ((cfg1.win 1).blk t).view.read (Elt Ideal) (gates S) := by
  show (cfg1.win 1).cut (grid1.coords t) ((dat1 (F := Ideal) V c).after 1 t) = _
  rw [after1_1]
  unfold out1_1
  rw [View.canon_unit_zero hz]
  simp only [View.ld_unit_zero (S := S200x12x64) hz]
  obtain ⟨e0, e1, e2, e3, e4, e5⟩ := idx_facts t
  funext j
  show k1_pay1 (iblk1 V c 0 t) j = gates S (((cfg1.win 1).blk t).view.emb j)
  refine pay_block (iblk1 V c 0 t) S t.val j _ (fun b p d n hn => ?_) ?_ ?_ ?_
  · show (V c main_v1 : S1000x12x64.Idx → EReal) (((cfg1.win 0).blk t).view.emb (ix3 b p d)) = S (ix3 n p d)
    rw [hs]
    refine congrArg S (funext fun a => Fin.ext ?_)
    match a with
    | ⟨0, _⟩ => show win1_0.index t (0 : Fin 3) * 200 + 1 * b.val = n.val; omega
    | ⟨1, _⟩ => show win1_0.index t (1 : Fin 3) * 12 + 1 * p.val = p.val; omega
    | ⟨2, _⟩ => show win1_0.index t (2 : Fin 3) * 64 + 1 * d.val = d.val; omega
  · show win1_1.index t (0 : Fin 3) * 200 + 1 * (j 0).val = t.val * 200 + (j 0).val; omega
  · show win1_1.index t (1 : Fin 3) * 12 + 1 * (j 1).val = (j 1).val; omega
  · show win1_1.index t (2 : Fin 3) * 12 + 1 * (j 2).val = (j 2).val; omega

/-- An index of the gates is in point `t`'s block iff each coordinate is in the block's range on its axis. -/
theorem mem_blk (t : Fin cfg1.N) (i : S1000x12x12.Idx) :
    i ∈ ((cfg1.win 1).blk t).view.set ↔ ∀ a : Fin 3, win1_1.index t a * S200x12x12.size a ≤ (i a).val ∧ (i a).val < win1_1.index t a * S200x12x12.size a + S200x12x12.size a := by
  show i ∈ ((View.whole main_v2).slice (win1_1.rect t)).set ↔ _
  rw [View.set_slice_whole, Rect.mem_set_unit]
  exact Iff.rfl

/-- Every index of the gates is in some point's block: node `n` is in point `n / 200`'s. -/
theorem cover (i : S1000x12x12.Idx) :
    ∃ t : Fin cfg1.N, (cfg1.win 1).flush t = true ∧ i ∈ ((cfg1.win 1).blk t).view.set := by
  have hi0 : (i 0).val < 1000 := (i 0).isLt
  have hi1 : (i 1).val < 12 := (i 1).isLt
  have hi2 : (i 2).val < 12 := (i 2).isLt
  have hN : grid1.N = 5 := N_1
  obtain ⟨t, ht⟩ : ∃ t : Fin cfg1.N, t.val = (i 0).val / 200 := ⟨⟨(i 0).val / 200, by show (i 0).val / 200 < grid1.N; omega⟩, rfl⟩
  obtain ⟨e0, e1, e2, e3, e4, e5⟩ := idx_facts t
  refine ⟨t, flush1_1 t, ?_⟩
  rw [mem_blk]
  intro a
  match a with
  | ⟨0, _⟩ => show win1_1.index t (0 : Fin 3) * 200 ≤ (i 0).val ∧ (i 0).val < win1_1.index t (0 : Fin 3) * 200 + 200; omega
  | ⟨1, _⟩ => show win1_1.index t (1 : Fin 3) * 12 ≤ (i 1).val ∧ (i 1).val < win1_1.index t (1 : Fin 3) * 12 + 12; omega
  | ⟨2, _⟩ => show win1_1.index t (2 : Fin 3) * 12 ≤ (i 2).val ∧ (i 2).val < win1_1.index t (2 : Fin 3) * 12 + 12; omega

/-! ## The region's output array -/

theorem final1 (V : (c : Dev nD) → (b : Ref sig .tc) → Buf (Elt Ideal) ((c : Thread nD τ).loc b)) (c : Dev nD)
    (x0 : Cert.ReferenceIdeal.S12x1000x64.Idx → EReal) (x1 : Cert.ReferenceIdeal.S1000x1000.Idx → BitVec 32)
    (hs : (V c main_v1 : S1000x12x64.Idx → EReal) = Cert.ReferenceIdeal.Read.val_main_v19 (F := Ideal) x0 x1) :
    ((dat1 (F := Ideal) V c).arrAt 1 cfg1.N : S1000x12x12.Idx → EReal) = Cert.ReferenceIdeal.Read.val_main_v28 (F := Ideal) x0 x1 := by
  refine ((dat1 (F := Ideal) V c).arrAt_eq_of_cover 1 (gates (Cert.ReferenceIdeal.Read.val_main_v19 (F := Ideal) x0 x1))
    (fun t _ => flushed_eq V c _ hs t) cover).trans ?_
  funext i
  exact (ref_apply x0 x1 i).symm

end Cert.Temporal

end
-- ==== Proof.Outer.lean ====
/-
  The third region (the outer product of the temporal weights with the adjacency matrix): its output array after the run
  is the reference's product stage, when its inputs are the adjacency argument and the reference's transposed weights.

  The body multiplies, for every node b, time t1 and neighbour a of a block, the temporal weight sw[0, b, t1] by the
  adjacency entry adj[b, a] converted to a float; the grid's point i works on the weights' slice s2 = i % 12 and on the
  rows 200 * (i / 12) .. 200 * (i / 12) + 199 of the adjacency matrix, and writes block (s2, i / 12, 0, 0) of the result.
  The reference computes out[s2, b, t1, a] = sw[s2, b, t1] * float(adj[b, a]) by two broadcasts and a product. Both
  sides are the same product entry by entry; the sixty blocks tile the result array.
-/
import proofs.«164520_j68367289417954_2_alg».proof.Proof.Gen.KernelIdeal.Frame
import proofs.«164520_j68367289417954_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Outer

open Idealize.ShloMosaic Idealize.ShloMosaic.TcCoe Idealize.ShloMosaic.ValueIdx Idealize.SL.Sem
open Cert.KernelIdeal Cert.KernelIdeal.Gen

/-! ## The body's product at an entry of a block -/

/-- Entry (u, b, t1, a) of what the body stores: the weight at (0, b, t1) times the adjacency entry (b, a) as a float.
    The stored value is the product of two broadcasts, one of the weights along the neighbours' axis and one of the
    converted adjacency rows along the time axis, under casts that only add or drop unit axes. -/
theorem body_entry (xa : Vec Ideal S200x1000 .i32) (xs : Vec Ideal S1x200x12 .f32) (u : Fin 1) (b : Fin 200) (t1 : Fin 12) (a : Fin 1000) :
    k2_pay1 (F := Ideal) xa xs (ix4 u b t1 a) = xs (ix3 (0 : Fin 1) b t1) * FloatOps.sitofp (F := Ideal) .f32 (xa (ix2 b a)) := by
  unfold k2_pay1
  refine (shapeCast_abc_1abc_apply _ _ u b t1 a).trans ?_
  refine (mulf_apply _ _ _).trans ?_
  refine congrArg₂ (· * ·) ?_ ?_
  · refine (broadcastTo_apply _ _ (ix3 b t1 a) (ix3 b t1 (0 : Fin 1)) (fun ax => ?_)).trans ?_
    · match ax with
      | ⟨0, _⟩ => show b.val = if (200 : Nat) = 1 then 0 else b.val; rw [if_neg (by decide)]
      | ⟨1, _⟩ => show t1.val = if (12 : Nat) = 1 then 0 else t1.val; rw [if_neg (by decide)]
      | ⟨2, _⟩ => show 0 = if (1 : Nat) = 1 then 0 else a.val; rw [if_pos rfl]
    · refine (shapeCast_apply _ _ (ix3 b t1 (0 : Fin 1)) (ix2 b t1) ?_).trans ?_
      · rw [Shape.rowMajor_val_two, Shape.rowMajor_val_three]
        show b.val * 12 + t1.val = (b.val * 12 + t1.val) * 1 + 0
        omega
      · exact shapeCast_1ab_ab_apply _ _ b t1
  · refine (broadcastTo_apply _ _ (ix3 b t1 a) (ix3 b (0 : Fin 1) a) (fun ax => ?_)).trans ?_
    · match ax with
      | ⟨0, _⟩ => show b.val = if (200 : Nat) = 1 then 0 else b.val; rw [if_neg (by decide)]
      | ⟨1, _⟩ => show 0 = if (1 : Nat) = 1 then 0 else t1.val; rw [if_pos rfl]
      | ⟨2, _⟩ => show a.val = if (1000 : Nat) = 1 then 0 else a.val; rw [if_neg (by decide)]
    · refine (shapeCast_apply _ _ (ix3 b (0 : Fin 1) a) (ix2 b a) ?_).trans ?_
      · rw [Shape.rowMajor_val_two, Shape.rowMajor_val_three]
        show b.val * 1000 + a.val = (b.val * 1 + 0) * 1000 + a.val
        omega
      · rfl

/-! ## The reference's product stage at an entry -/

open Cert.ReferenceIdeal.Read in
/-- Entry `i` of the reference's product: the transposed weights at `i`'s first three coordinates times the adjacency
    entry at `i`'s second and fourth, as a float. The two broadcasts only drop or repeat coordinates. -/
theorem ref_entry (x0 : Cert.ReferenceIdeal.S12x1000x64.Idx → EReal) (x1 : Cert.ReferenceIdeal.S1000x1000.Idx → BitVec 32)
    (i : Cert.ReferenceIdeal.S12x1000x12x1000.Idx) (j : Cert.ReferenceIdeal.S12x1000x12.Idx) (k : Cert.ReferenceIdeal.S1000x1000.Idx)
    (hj0 : (j 0).val = (i 0).val) (hj1 : (j 1).val = (i 1).val) (hj2 : (j 2).val = (i 2).val)
    (hk0 : (k 0).val = (i 1).val) (hk1 : (k 1).val = (i 3).val) :
    val_main_v35 (F := Ideal) x0 x1 i = val_main_v29 (F := Ideal) x0 x1 j * FloatOps.sitofp (F := Ideal) .f32 (x1 k) := by
  have ej : idx_main_v30 (idx_main_v33 i) = j := funext fun a => Fin.ext (by
    match a with
    | ⟨0, _⟩ => exact hj0.symm
    | ⟨1, _⟩ => exact hj1.symm
    | ⟨2, _⟩ => exact hj2.symm)
  have ek : idx_main_v32 (idx_main_v34 i) = k := funext fun a => Fin.ext (by
    match a with
    | ⟨0, _⟩ => exact hk0.symm
    | ⟨1, _⟩ => exact hk1.symm)
  rw [val_main_v35_apply, val_main_v33_apply, val_main_v30_apply, val_main_v34_apply, val_main_v32_apply,
    val_main_v31_apply, ej, ek]
  rfl

/-! ## From the sixty blocks to the array -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps, decided over the sixty points: point `t` reads the adjacency rows' block `t / 12`, the
    weights' block (`t % 12`, `t / 12`, 0), and writes the result's block (`t % 12`, `t / 12`, 0, 0). -/
theorem block_of_point : ∀ t : Fin cfg2.N,
    win2_0.index t (0 : Fin 2) = t.val / 12 ∧ win2_0.index t (1 : Fin 2) = 0
    ∧ win2_1.index t (0 : Fin 3) = t.val % 12 ∧ win2_1.index t (1 : Fin 3) = t.val / 12 ∧ win2_1.index t (2 : Fin 3) = 0
    ∧ win2_2.index t (0 : Fin 4) = t.val % 12 ∧ win2_2.index t (1 : Fin 4) = t.val / 12
    ∧ win2_2.index t (2 : Fin 4) = 0 ∧ win2_2.index t (3 : Fin 4) = 0 :=
  (by decide +kernel : ∀ t : Fin grid2.N, _)

/-- An index of the result is in point `t`'s block iff each coordinate is in the block's range on its axis. -/
theorem mem_block_iff (t : Fin cfg2.N) (i : S12x1000x12x1000.Idx) :
    i ∈ ((cfg2.win 2).blk t).view.set ↔ ∀ a : Fin 4, win2_2.index t a * S1x200x12x1000.size a ≤ (i a).val ∧ (i a).val < win2_2.index t a * S1x200x12x1000.size a + S1x200x12x1000.size a := by
  show i ∈ ((View.whole main_v4).slice (win2_2.rect t)).set ↔ _
  rw [View.set_slice_whole, Rect.mem_set_unit]
  exact Iff.rfl

/-- What point `t` writes back is block `t` of the reference's product: at each entry of the block the body's product
    is taken at the weights' and the adjacency rows' entries that lie, in their arrays, where the result's entry does. -/
theorem block_written (V : (c : Dev nD) → (b : Ref sig .tc) → Buf (Elt Ideal) ((c : Thread nD τ).loc b)) (c : Dev nD)
    (x0 : Cert.ReferenceIdeal.S12x1000x64.Idx → EReal) (x1 : Cert.ReferenceIdeal.S1000x1000.Idx → BitVec 32)
    (ha : (V c main_arg1 : S1000x1000.Idx → BitVec 32) = x1)
    (hs : (V c main_v3 : S12x1000x12.Idx → EReal) = Cert.ReferenceIdeal.Read.val_main_v29 (F := Ideal) x0 x1) (t : Fin cfg2.N) :
    (dat2 (F := Ideal) V c).flushed 2 t = ((cfg2.win 2).blk t).view.read (Elt Ideal) (Cert.ReferenceIdeal.Read.val_main_v35 (F := Ideal) x0 x1) := by
  show (cfg2.win 2).cut (grid2.coords t) ((dat2 V c).after 2 t) = _
  rw [after2_2]
  unfold out2_2
  rw [View.canon_unit_zero zeros4]
  simp only [View.ld_unit_zero (S := S200x1000) zeros2, View.ld_unit_zero (S := S1x200x12) zeros3]
  obtain ⟨e00, e01, e10, e11, e12, e20, e21, e22, e23⟩ := block_of_point t
  funext y
  have hy0 : (y 0).val < 1 := (y 0).isLt
  have hy1 : (y 1).val < 200 := (y 1).isLt
  have hy2 : (y 2).val < 12 := (y 2).isLt
  have hy3 : (y 3).val < 1000 := (y 3).isLt
  have ey : (win2 2).xinj (grid2.coords t) y
      = ix4 (⟨(y 0).val, hy0⟩ : Fin 1) (⟨(y 1).val, hy1⟩ : Fin 200) (⟨(y 2).val, hy2⟩ : Fin 12) (⟨(y 3).val, hy3⟩ : Fin 1000) :=
    funext fun a => by match a with | ⟨0, _⟩ => rfl | ⟨1, _⟩ => rfl | ⟨2, _⟩ => rfl | ⟨3, _⟩ => rfl
  refine (congrArg (k2_pay1 (F := Ideal) (iblk2 V c 0 t) (iblk2 V c 1 t)) ey).trans ?_
  refine (body_entry (iblk2 V c 0 t) (iblk2 V c 1 t) _ _ _ _).trans ?_
  refine Eq.trans ?_ (ref_entry x0 x1 (((cfg2.win 2).blk t).view.emb y)
      (((cfg2.win 1).blk t).view.emb (ix3 (0 : Fin 1) (⟨(y 1).val, hy1⟩ : Fin 200) (⟨(y 2).val, hy2⟩ : Fin 12)))
      (((cfg2.win 0).blk t).view.emb (ix2 (⟨(y 1).val, hy1⟩ : Fin 200) (⟨(y 3).val, hy3⟩ : Fin 1000))) ?_ ?_ ?_ ?_ ?_).symm
  · exact congrArg₂ (fun (p : EReal) (q : BitVec 32) => p * FloatOps.sitofp (F := Ideal) .f32 q) (congrFun hs _) (congrFun ha _)
  · show win2_1.index t (0 : Fin 3) * 1 + 1 * 0 = win2_2.index t (0 : Fin 4) * 1 + 1 * (y 0).val
    omega
  · show win2_1.index t (1 : Fin 3) * 200 + 1 * (y 1).val = win2_2.index t (1 : Fin 4) * 200 + 1 * (y 1).val
    omega
  · show win2_1.index t (2 : Fin 3) * 12 + 1 * (y 2).val = win2_2.index t (2 : Fin 4) * 12 + 1 * (y 2).val
    omega
  · show win2_0.index t (0 : Fin 2) * 200 + 1 * (y 1).val = win2_2.index t (1 : Fin 4) * 200 + 1 * (y 1).val
    omega
  · show win2_0.index t (1 : Fin 2) * 1000 + 1 * (y 3).val = win2_2.index t (3 : Fin 4) * 1000 + 1 * (y 3).val
    omega

/-- The result array after the run is the reference's product: every entry (s2, b, t1, a) lies in the block that point
    (b / 200) * 12 + s2 writes back, and each point writes back its block of the product. -/
theorem final2 (V : (c : Dev nD) → (b : Ref sig .tc) → Buf (Elt Ideal) ((c : Thread nD τ).loc b)) (c : Dev nD)
    (x0 : Cert.ReferenceIdeal.S12x1000x64.Idx → EReal) (x1 : Cert.ReferenceIdeal.S1000x1000.Idx → BitVec 32)
    (ha : (V c main_arg1 : S1000x1000.Idx → BitVec 32) = x1)
    (hs : (V c main_v3 : S12x1000x12.Idx → EReal) = Cert.ReferenceIdeal.Read.val_main_v29 (F := Ideal) x0 x1) :
    ((dat2 (F := Ideal) V c).arrAt 2 cfg2.N : S12x1000x12x1000.Idx → EReal) = Cert.ReferenceIdeal.Read.val_main_v35 (F := Ideal) x0 x1 := by
  refine (dat2 (F := Ideal) V c).arrAt_eq_of_cover 2 (Cert.ReferenceIdeal.Read.val_main_v35 (F := Ideal) x0 x1)
    (fun t _ => block_written V c x0 x1 ha hs t) (fun i => ?_)
  have hi0 : (i 0).val < 12 := (i 0).isLt
  have hi1 : (i 1).val < 1000 := (i 1).isLt
  have hi2 : (i 2).val < 12 := (i 2).isLt
  have hi3 : (i 3).val < 1000 := (i 3).isLt
  have hN : grid2.N = 60 := N_2
  obtain ⟨t, ht⟩ : ∃ t : Fin cfg2.N, t.val = (i 1).val / 200 * 12 + (i 0).val :=
    ⟨⟨(i 1).val / 200 * 12 + (i 0).val, by show _ < grid2.N; rw [hN]; omega⟩, rfl⟩
  obtain ⟨-, -, -, -, -, e20, e21, e22, e23⟩ := block_of_point t
  refine ⟨t, flush2_2 t, ?_⟩
  rw [mem_block_iff]
  intro a
  match a with
  | ⟨0, _⟩ =>
    show win2_2.index t (0 : Fin 4) * 1 ≤ (i 0).val ∧ (i 0).val < win2_2.index t (0 : Fin 4) * 1 + 1
    omega
  | ⟨1, _⟩ =>
    show win2_2.index t (1 : Fin 4) * 200 ≤ (i 1).val ∧ (i 1).val < win2_2.index t (1 : Fin 4) * 200 + 200
    omega
  | ⟨2, _⟩ =>
    show win2_2.index t (2 : Fin 4) * 12 ≤ (i 2).val ∧ (i 2).val < win2_2.index t (2 : Fin 4) * 12 + 12
    omega
  | ⟨3, _⟩ =>
    show win2_2.index t (3 : Fin 4) * 1000 ≤ (i 3).val ∧ (i 3).val < win2_2.index t (3 : Fin 4) * 1000 + 1000
    omega

end Cert.Outer

end
-- ==== Proof.lean ====
/-
  The kernel — three pipelined regions with two transposes between them and a reshape after — against its plain
  reference, on the extended reals.

  Both programs compute, from the features h : [12, 1000, 64] and the integer adjacency matrix adj : [1000, 1000]:
  per time slice the softmax of the scaled Gram matrix masked by the graph, times the slice's features (the node
  features); per node the logistic function of the scaled Gram matrix of its 12 time rows; and the outer product of
  those weights, transposed, with the adjacency matrix read as reals, reshaped to [12000, 12000]. They differ only in how
  the arrays are cut: the kernel works slice by slice, 200 nodes at a time, and on 60 blocks of the product, where the
  reference works on whole arrays. The literals (1/8, the finite fill value, -∞, 0, 1) are the same words on both sides,
  and the logistic function is by definition the quotient 1 / (1 + exp (-x)) the reference spells out, so no law beyond
  the rearrangement of sums and arrays is needed and the precondition is never opened.

  The proof: each region's output array after the run is the reference's stage of the same meaning (the node features,
  the temporal weights, the product), by reading what every grid point writes back through its block and covering the
  array with the blocks; the host transposes and the reshape are the same operations in both programs.
-/
import proofs.«164520_j68367289417954_2_alg».proof.Defs
import proofs.«164520_j68367289417954_2_alg».proof.Proof.Gen.Kernel
import proofs.«164520_j68367289417954_2_alg».proof.Proof.Gen.Kernel.Skeleton
import proofs.«164520_j68367289417954_2_alg».proof.Proof.Gen.Kernel.Launch
import proofs.«164520_j68367289417954_2_alg».proof.Proof.Gen.Kernel.Points
import proofs.«164520_j68367289417954_2_alg».proof.Proof.Gen.Kernel.Frame
import proofs.«164520_j68367289417954_2_alg».proof.Proof.Gen.KernelIdeal
import proofs.«164520_j68367289417954_2_alg».proof.Proof.Gen.KernelIdeal.Skeleton
import proofs.«164520_j68367289417954_2_alg».proof.Proof.Gen.KernelIdeal.Launch
import proofs.«164520_j68367289417954_2_alg».proof.Proof.Gen.KernelIdeal.Points
import proofs.«164520_j68367289417954_2_alg».proof.Proof.Gen.KernelIdeal.Frame
import proofs.«164520_j68367289417954_2_alg».proof.Proof.Gen.ReferenceIdeal
import proofs.«164520_j68367289417954_2_alg».proof.Proof.Gen.ReferenceIdeal.Run
import proofs.«164520_j68367289417954_2_alg».proof.Proof.Gen.ReferenceIdeal.Read
import proofs.«164520_j68367289417954_2_alg».proof.Proof.Gen.Pre_finite_inputs
import proofs.«164520_j68367289417954_2_alg».proof.Proof.KernelRun
import proofs.«164520_j68367289417954_2_alg».proof.Proof.Attention
import proofs.«164520_j68367289417954_2_alg».proof.Proof.Temporal
import proofs.«164520_j68367289417954_2_alg».proof.Proof.Outer
import Idealize.ShloMosaic.Adequacy
import Idealize.ShloMosaic.Init

noncomputable section

namespace Cert.Proof

open Idealize.ShloMosaic Idealize.ShloMosaic.TcCoe Idealize.SL.Sem

section Value

open Cert.KernelIdeal Cert.KernelIdeal.Gen Cert.ReferenceIdeal.Read

variable (m : (ℓ : Loc nD τ sig) → Buf (Elt Ideal) ℓ) (ρ : Dev nD → PrngReg)

/-- The idealized kernel's result buffer ends holding the reference's last stage of the two argument arrays: region by
    region the output array is the reference's stage, and the host operations between are the reference's own. -/
theorem kernel_result (c : Dev nD) :
    (W6 m ρ c (Proc.devRef .tc main_v5) : S12000x12000.Idx → EReal)
      = val_main_v36 (F := Ideal) (m ((c.tc : Thread nD τ).loc main_arg0)) (m ((c.tc : Thread nD τ).loc main_arg1)) := by
  have h0 := Cert.Attention.final0 (V0 m ρ) c _ _ (Cert.KernelIdeal.RunValue.V0_h m ρ c) (Cert.KernelIdeal.RunValue.V0_adj m ρ c)
  have hs : (V2 m ρ c main_v1 : S1000x12x64.Idx → EReal)
      = val_main_v19 (F := Ideal) (m ((c.tc : Thread nD τ).loc main_arg0)) (m ((c.tc : Thread nD τ).loc main_arg1)) := by
    rw [Cert.KernelIdeal.RunValue.V2_s, h0]; rfl
  have h1 := Cert.Temporal.final1 (V2 m ρ) c _ _ hs
  have hp : (V4 m ρ c main_v3 : S12x1000x12.Idx → EReal)
      = val_main_v29 (F := Ideal) (m ((c.tc : Thread nD τ).loc main_arg0)) (m ((c.tc : Thread nD τ).loc main_arg1)) := by
    rw [Cert.KernelIdeal.RunValue.V4_swp, h1]; rfl
  have h2 := Cert.Outer.final2 (V4 m ρ) c _ _ (Cert.KernelIdeal.RunValue.V4_adj m ρ c) hp
  rw [Cert.KernelIdeal.RunValue.result_eq, h2]; rfl

end Value

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both programs end with the reference's last stage of the (agreeing) argument arrays. -/
theorem algebraic : Cert.algebraic_KernelIdeal_ReferenceIdeal := by
  intro m ρ m' ρ' _ hagree
  refine ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (kernel_result m ρ c), (h c).2.1, (h c).2.2⟩)
      (Cert.KernelIdeal.RunValue.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v36_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
